-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x128 : Shape := ⟨3, ![16, 8192, 128]⟩
abbrev S16x16384x128 : Shape := ⟨3, ![16, 16384, 128]⟩
abbrev S16384 : Shape := ⟨1, ![16384]⟩
abbrev S128x128 : Shape := ⟨2, ![128, 128]⟩
abbrev S128 : Shape := ⟨1, ![128]⟩
abbrev S2x65536 : Shape := ⟨2, ![2, 65536]⟩
abbrev S_ : Shape := ⟨0, ![]⟩

class Facts : Prop where
  bcast_S_S16x8192x128 : S_.BroadcastsInDim S16x8192x128 (![] : Fin 0 → Fin S16x8192x128.rank)
  reducesTo_S16x8192x128_S_d0_1_2 : S16x8192x128.ReducesTo [0, 1, 2] S_
  h_S_ : 0 < S_.numel
  bcast_S_S16x16384x128 : S_.BroadcastsInDim S16x16384x128 (![] : Fin 0 → Fin S16x16384x128.rank)
  reducesTo_S16x16384x128_S_d0_1_2 : S16x16384x128.ReducesTo [0, 1, 2] S_
  bcast_S_S16384 : S_.BroadcastsInDim S16384 (![] : Fin 0 → Fin S16384.rank)
  reducesTo_S16384_S_d0 : S16384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128 .f32) (main_arg8 : FVec F S128x128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x8192x128 .f32) (main_arg1 : FVec F S16x16384x128 .f32) (main_arg2 : FVec F S16384 .f32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : IVec S2x65536 32) (main_arg14 : IVec S2x65536 32) : IVec S_ 1 :=
  let main_v0 : FVec F S16x8192x128 .f32 := Host.absf main_arg0
  let main_cst : FVec F S_ .f32 := constant S_ .f32 0x7F800000#32
  let main_v1 : FVec F S16x8192x128 .f32 := broadcastInDim S16x8192x128 ![] bcast_S_S16x8192x128 main_cst
  let main_v2 : IVec S16x8192x128 1 := cmpf .olt main_v0 main_v1
  let main_c : IVec S_ 1 := constantI S_ 1 1#1
  let main_v3 : IVec S_ 1 := (fun x v => Host.reduce IntOp.andi x v reducesTo_S16x8192x128_S_d0_1_2 h_S_) main_v2 main_c
  let main_v4 : FVec F S16x16384x128 .f32 := Host.absf main_arg1
  let main_cst_0 : FVec F S_ .f32 := constant S_ .f32 0x7F800000#32
  let main_v5 : FVec F S16x16384x128 .f32 := broadcastInDim S16x16384x128 ![] bcast_S_S16x16384x128 main_cst_0
  let main_v6 : IVec S16x16384x128 1 := cmpf .olt main_v4 main_v5
  let main_c_1 : IVec S_ 1 := constantI S_ 1 1#1
  let main_v7 : IVec S_ 1 := (fun x v => Host.reduce IntOp.andi x v reducesTo_S16x16384x128_S_d0_1_2 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S16x8192x128 : Shape := ⟨3, ![16, 8192, 128]⟩
abbrev S16x16384x128 : Shape := ⟨3, ![16, 16384, 128]⟩
abbrev S16384 : Shape := ⟨1, ![16384]⟩
abbrev S128x128 : Shape := ⟨2, ![128, 128]⟩
abbrev S128 : Shape := ⟨1, ![128]⟩
abbrev S2x65536 : Shape := ⟨2, ![2, 65536]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S16x65536x128 : Shape := ⟨3, ![16, 65536, 128]⟩
abbrev S1x8192x128 : Shape := ⟨3, ![1, 8192, 128]⟩
abbrev S8192 : Shape := ⟨1, ![8192]⟩
abbrev S8192x128 : Shape := ⟨2, ![8192, 128]⟩
abbrev S8192x1 : Shape := ⟨2, ![8192, 1]⟩
abbrev S1x2048x128 : Shape := ⟨3, ![1, 2048, 128]⟩
abbrev S2048 : Shape := ⟨1, ![2048]⟩
abbrev S2048x128 : Shape := ⟨2, ![2048, 128]⟩
abbrev S2048x1 : Shape := ⟨2, ![2048, 1]⟩
abbrev S1x128 : Shape := ⟨2, ![1, 128]⟩

abbrev nBuf : Space → Nat
  | .hbm => 112
  | .vmem => 38
  | .smem => 0
  | _ => 0

abbrev bufTy : (tb : Table) → Fin (tcTables nBuf tb) → BufTy
  | .hbm, ⟨0, _⟩ => ⟨S16x8192x128, .f32⟩
  | .hbm, ⟨1, _⟩ => ⟨S16x16384x128, .f32⟩
  | .hbm, ⟨2, _⟩ => ⟨S16384, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S2x65536, .i32⟩
  | .hbm, ⟨14, _⟩ => ⟨S2x65536, .i32⟩
  | .hbm, ⟨15, _⟩ => ⟨S1x65536, .i32⟩
  | .hbm, ⟨16, _⟩ => ⟨S65536, .i32⟩
  | .hbm, ⟨17, _⟩ => ⟨S1x65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S16x65536x128, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536, .f32⟩
  | .hbm, ⟨37, _⟩ => ⟨S65536, .f32⟩
  | .hbm, ⟨38, _⟩ => ⟨S65536, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S16x65536x128, .f32⟩
  | .hbm, ⟨46, _⟩ => ⟨S_, .f32⟩
  | .hbm, ⟨47, _⟩ => ⟨S16x16384x128, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S16x16384x128, .f32⟩
  | .hbm, ⟨57, _⟩ => ⟨S_, .f32⟩
  | .hbm, ⟨58, _⟩ => ⟨S16384, .f32⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S_, .f32⟩
  | .hbm, ⟨68, _⟩ => ⟨S65536, .f32⟩
  | .hbm, ⟨69, _⟩ => ⟨S16384, .f32⟩
  | .hbm, ⟨70, _⟩ => ⟨S16x16384x128, .f32⟩
  | .hbm, ⟨71, _⟩ => ⟨S1x65536, .i32⟩
  | .hbm, ⟨72, _⟩ => ⟨S65536, .i32⟩
  | .hbm, ⟨73, _⟩ => ⟨S1x65536, .i32⟩
  | .hbm, ⟨74, _⟩ => ⟨S65536, .i32⟩
  | .hbm, ⟨75, _⟩ => ⟨S_, .i32⟩
  | .hbm, ⟨76, _⟩ => ⟨S65536, .i32⟩
  | .hbm, ⟨77, _⟩ => ⟨S65536, .i1⟩
  | .hbm, ⟨78, _⟩ => ⟨S_, .i32⟩
  | .hbm, ⟨79, _⟩ => ⟨S65536, .i32⟩
  | .hbm, ⟨80, _⟩ => ⟨S65536, .i32⟩
  | .hbm, ⟨81, _⟩ => ⟨S65536, .i32⟩
  | .hbm, ⟨82, _⟩ => ⟨S65536x1, .i32⟩
  | .hbm, ⟨83, _⟩ => ⟨S16x65536x128, .f32⟩
  | .hbm, ⟨84, _⟩ => ⟨S_, .f32⟩
  | .hbm, ⟨85, _⟩ => ⟨S65536, .f32⟩
  | .hbm, ⟨86, _⟩ => ⟨S16x65536x128, .f32⟩
  | .hbm, ⟨87, _⟩ => ⟨S_, .f32⟩
  | .hbm, ⟨88, _⟩ => ⟨S16x8192x128, .f32⟩
  | .hbm, ⟨89, _⟩ => ⟨S_, .i32⟩
  | .hbm, ⟨90, _⟩ => ⟨S65536, .i32⟩
  | .hbm, ⟨91, _⟩ => ⟨S65536, .i1⟩
  | .hbm, ⟨92, _⟩ => ⟨S_, .i32⟩
  | .hbm, ⟨93, _⟩ => ⟨S65536, .i32⟩
  | .hbm, ⟨94, _⟩ => ⟨S65536, .i32⟩
  | .hbm, ⟨95, _⟩ => ⟨S65536, .i32⟩
  | .hbm, ⟨96, _⟩ => ⟨S65536x1, .i32⟩
  | .hbm, ⟨97, _⟩ => ⟨S16x8192x128, .f32⟩
  | .hbm, ⟨98, _⟩ => ⟨S_, .f32⟩
  | .hbm, ⟨99, _⟩ => ⟨S8192, .f32⟩
  | .hbm, ⟨100, _⟩ => ⟨S_, .i32⟩
  | .hbm, ⟨101, _⟩ => ⟨S65536, .i32⟩
  | .hbm, ⟨102, _⟩ => ⟨S65536, .i1⟩
  | .hbm, ⟨103, _⟩ => ⟨S_, .i32⟩
  | .hbm, ⟨104, _⟩ => ⟨S65536, .i32⟩
  | .hbm, ⟨105, _⟩ => ⟨S65536, .i32⟩
  | .hbm, ⟨106, _⟩ => ⟨S65536, .i32⟩
  | .hbm, ⟨107, _⟩ => ⟨S65536x1, .i32⟩
  | .hbm, ⟨108, _⟩ => ⟨S_, .f32⟩
  | .hbm, ⟨109, _⟩ => ⟨S65536, .f32⟩
  | .hbm, ⟨110, _⟩ => ⟨S8192, .f32⟩
  | .hbm, ⟨111, _⟩ => ⟨S16x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S8192, .f32⟩
  | .local _ .vmem, ⟨4, _⟩ => ⟨S8192, .f32⟩
  | .local _ .vmem, ⟨5, _⟩ => ⟨S1x8192x128, .f32⟩
  | .local _ .vmem, ⟨6, _⟩ => ⟨S1x8192x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S2048, .f32⟩
  | .local _ .vmem, ⟨12, _⟩ => ⟨S2048, .f32⟩
  | .local _ .vmem, ⟨13, _⟩ => ⟨S128x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S1x2048x128, .f32⟩
  | .local _ .vmem, ⟨18, _⟩ => ⟨S1x2048x128, .f32⟩
  | .local _ .vmem, ⟨19, _⟩ => ⟨S1x8192x128, .f32⟩
  | .local _ .vmem, ⟨20, _⟩ => ⟨S1x8192x128, .f32⟩
  | .local _ .vmem, ⟨21, _⟩ => ⟨S128x128, .f32⟩
  | .local _ .vmem, ⟨22, _⟩ => ⟨S8192, .f32⟩
  | .local _ .vmem, ⟨23, _⟩ => ⟨S8192, .f32⟩
  | .local _ .vmem, ⟨24, _⟩ => ⟨S1x8192x128, .f32⟩
  | .local _ .vmem, ⟨25, _⟩ => ⟨S1x8192x128, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .f32⟩
  | .local _ .vmem, ⟨29, _⟩ => ⟨S1x2048x128, .f32⟩
  | .local _ .vmem, ⟨30, _⟩ => ⟨S2048, .f32⟩
  | .local _ .vmem, ⟨31, _⟩ => ⟨S2048, .f32⟩
  | .local _ .vmem, ⟨32, _⟩ => ⟨S128x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S1x2048x128, .f32⟩
  | .local _ .vmem, ⟨37, _⟩ => ⟨S1x2048x128, .f32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_c_15 : Ref sig .tc := ⟨.hbm, 89, rfl⟩
abbrev main_v57 : Ref sig .tc := ⟨.hbm, 90, rfl⟩
abbrev main_v58 : Ref sig .tc := ⟨.hbm, 91, rfl⟩
abbrev main_c_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_17 : Ref sig .tc := ⟨.hbm, 98, rfl⟩
abbrev main_v64 : Ref sig .tc := ⟨.hbm, 99, rfl⟩
abbrev main_c_18 : Ref sig .tc := ⟨.hbm, 100, rfl⟩
abbrev main_v65 : Ref sig .tc := ⟨.hbm, 101, rfl⟩
abbrev main_v66 : Ref sig .tc := ⟨.hbm, 102, rfl⟩
abbrev main_c_19 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_20 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x2048x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x128 : S8192x1.Broadcasts S8192x128
  shapeCasts_S8192x128_S1x8192x128 : S8192x128.ShapeCasts S1x8192x128
  bcast_S_S16x16384x128 : S_.BroadcastsInDim S16x16384x128 (![] : Fin 0 → Fin S16x16384x128.rank)
  bcast_S_S16384 : S_.BroadcastsInDim S16384 (![] : Fin 0 → Fin S16384.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x128 : S2048x1.Broadcasts S2048x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  shapeCasts_S2048x128_S1x2048x128 : S2048x128.ShapeCasts S1x2048x128
  bcast_S_S16x8192x128 : S_.BroadcastsInDim S16x8192x128 (![] : Fin 0 → Fin S16x8192x128.rank)
  bcast_S_S8192 : S_.BroadcastsInDim S8192 (![] : Fin 0 → Fin S8192.rank)
  gather_S16x8192x128_S65536x1_S16x65536x128_02_1_n_n_1_1_161128_wf : GatherDims.WF S16x8192x128 S65536x1 S16x65536x128 [0, 2] [1] [] [1] [] 1 ![16, 1, 128]
  gather_S16384_S65536x1_S65536_n_0_n_n_0_1_1_wf : GatherDims.WF S16384 S65536x1 S65536 [] [0] [] [0] [] 1 ![1]
  dot_S8192x128_S128x128_S8192x128_1_1_0_0_n_n_wf : DotDims.WF S8192x128 S128x128 S8192x128 [1] [1] [0] [0] [] []
  scatter_S16x16384x128_S65536x1_S16x65536x128_02_1_1_1_wf : ScatterDims.WF S16x16384x128 S65536x1 S16x65536x128 [0, 2] [1] [1] 1
  scatter_S16384_S65536x1_S65536_n_0_0_1_wf : ScatterDims.WF S16384 S65536x1 S65536 [] [0] [0] 1
  dot_S2048x128_S128x128_S2048x128_1_1_0_0_n_n_wf : DotDims.WF S2048x128 S128x128 S2048x128 [1] [1] [0] [0] [] []
  gather_S16x16384x128_S65536x1_S16x65536x128_02_1_n_n_1_1_161128_wf : GatherDims.WF S16x16384x128 S65536x1 S16x65536x128 [0, 2] [1] [] [1] [] 1 ![16, 1, 128]
  scatter_S16x8192x128_S65536x1_S16x65536x128_02_1_1_1_wf : ScatterDims.WF S16x8192x128 S65536x1 S16x65536x128 [0, 2] [1] [1] 1
  scatter_S8192_S65536x1_S65536_n_0_0_1_wf : ScatterDims.WF S8192 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x65536x128.size a
  hwx0_0 : ∀ i : grid0.Coords, EltTy.bits .f32 = 32 ∨ (Rect.block (s := S16x65536x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S65536.size a
  hwx0_2 : ∀ i : grid0.Coords, EltTy.bits .f32 = 32 ∨ (Rect.block (s := S65536) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S16x65536x128.size a
  hwx0_3 : ∀ i : grid0.Coords, EltTy.bits .f32 = 32 ∨ (Rect.block (s := S16x65536x128) S1x8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S16x16384x128.size a
  hwx1_0 : ∀ i : grid1.Coords, EltTy.bits .f32 = 32 ∨ (Rect.block (s := S16x16384x128) S1x2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S16x16384x128.size a
  hwx1_1 : ∀ i : grid1.Coords, EltTy.bits .f32 = 32 ∨ (Rect.block (s := S16x16384x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S16384.size a
  hwx1_2 : ∀ i : grid1.Coords, EltTy.bits .f32 = 32 ∨ (Rect.block (s := S16384) S2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x128.size a ≤ S16x16384x128.size a
  hwx1_7 : ∀ i : grid1.Coords, EltTy.bits .f32 = 32 ∨ (Rect.block (s := S16x16384x128) S1x2048x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192x128.size a ≤ S16x65536x128.size a
  hwx2_0 : ∀ i : grid2.Coords, EltTy.bits .f32 = 32 ∨ (Rect.block (s := S16x65536x128) S1x8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192.size a ≤ S65536.size a
  hwx2_2 : ∀ i : grid2.Coords, EltTy.bits .f32 = 32 ∨ (Rect.block (s := S65536) S8192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8192x128.size a ≤ S16x65536x128.size a
  hwx2_3 : ∀ i : grid2.Coords, EltTy.bits .f32 = 32 ∨ (Rect.block (s := S16x65536x128) S1x8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x128.size a ≤ S16x8192x128.size a
  hwx3_0 : ∀ i : grid3.Coords, EltTy.bits .f32 = 32 ∨ (Rect.block (s := S16x8192x128) S1x2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S16x8192x128.size a
  hwx3_1 : ∀ i : grid3.Coords, EltTy.bits .f32 = 32 ∨ (Rect.block (s := S16x8192x128) S1x2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048.size a ≤ S8192.size a
  hwx3_2 : ∀ i : grid3.Coords, EltTy.bits .f32 = 32 ∨ (Rect.block (s := S8192) S2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x2048x128.size a ≤ S16x8192x128.size a
  hwx3_7 : ∀ i : grid3.Coords, EltTy.bits .f32 = 32 ∨ (Rect.block (s := S16x8192x128) S1x2048x128.size (cc3_transform_7 i) (hinb3_7 i)).WholeWords (EltTy.packing .f32)

variable [Facts₀]

def gather_S16x8192x128_S65536x1_S16x65536x128_02_1_n_n_1_1_161128 : GatherDims S16x8192x128 S65536x1 S16x65536x128 where
  offsetDims := [0, 2]
  collapsedSliceDims := [1]
  operandBatchingDims := []
  startIndicesBatchingDims := []
  startIndexMap := [1]
  indexVectorDim := 1
  sliceSizes := ![16, 1, 128]
  wf := gather_S16x8192x128_S65536x1_S16x65536x128_02_1_n_n_1_1_161128_wf
def gather_S16384_S65536x1_S65536_n_0_n_n_0_1_1 : GatherDims S16384 S65536x1 S65536 where
  offsetDims := []
  collapsedSliceDims := [0]
  operandBatchingDims := []
  startIndicesBatchingDims := []
  startIndexMap := [0]
  indexVectorDim := 1
  sliceSizes := ![1]
  wf := gather_S16384_S65536x1_S65536_n_0_n_n_0_1_1_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def scatter_S16x16384x128_S65536x1_S16x65536x128_02_1_1_1 : ScatterDims S16x16384x128 S65536x1 S16x65536x128 where
  updateWindowDims := [0, 2]
  insertedWindowDims := [1]
  scatterDimsToOperandDims := [1]
  indexVectorDim := 1
  wf := scatter_S16x16384x128_S65536x1_S16x65536x128_02_1_1_1_wf
def scatter_S16384_S65536x1_S65536_n_0_0_1 : ScatterDims S16384 S65536x1 S65536 where
  updateWindowDims := []
  insertedWindowDims := [0]
  scatterDimsToOperandDims := [0]
  indexVectorDim := 1
  wf := scatter_S16384_S65536x1_S65536_n_0_0_1_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def gather_S16x16384x128_S65536x1_S16x65536x128_02_1_n_n_1_1_161128 : GatherDims S16x16384x128 S65536x1 S16x65536x128 where
  offsetDims := [0, 2]
  collapsedSliceDims := [1]
  operandBatchingDims := []
  startIndicesBatchingDims := []
  startIndexMap := [1]
  indexVectorDim := 1
  sliceSizes := ![16, 1, 128]
  wf := gather_S16x16384x128_S65536x1_S16x65536x128_02_1_n_n_1_1_161128_wf
def scatter_S16x8192x128_S65536x1_S16x65536x128_02_1_1_1 : ScatterDims S16x8192x128 S65536x1 S16x65536x128 where
  updateWindowDims := [0, 2]
  insertedWindowDims := [1]
  scatterDimsToOperandDims := [1]
  indexVectorDim := 1
  wf := scatter_S16x8192x128_S65536x1_S16x65536x128_02_1_1_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf

abbrev win0_0 : Pipeline.Window sig grid0 :=
  Pipeline.Window.ofSpec (Memref.whole main_v10) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v53) S1x8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S8192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S1x2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S1x2048x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S16x8192x128 : Shape := ⟨3, ![16, 8192, 128]⟩
abbrev S16x16384x128 : Shape := ⟨3, ![16, 16384, 128]⟩
abbrev S16384 : Shape := ⟨1, ![16384]⟩
abbrev S128x128 : Shape := ⟨2, ![128, 128]⟩
abbrev S128 : Shape := ⟨1, ![128]⟩
abbrev S2x65536 : Shape := ⟨2, ![2, 65536]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S16x65536x128 : Shape := ⟨3, ![16, 65536, 128]⟩
abbrev S1x65536x1 : Shape := ⟨3, ![1, 65536, 1]⟩
abbrev S1x16384x1 : Shape := ⟨3, ![1, 16384, 1]⟩
abbrev S1x1x128 : Shape := ⟨3, ![1, 1, 128]⟩
abbrev S16x16384 : Shape := ⟨2, ![16, 16384]⟩
abbrev S16x16384x1 : Shape := ⟨3, ![16, 16384, 1]⟩
abbrev S8192 : Shape := ⟨1, ![8192]⟩
abbrev S1x8192x1 : Shape := ⟨3, ![1, 8192, 1]⟩
abbrev S16x8192 : Shape := ⟨2, ![16, 8192]⟩
abbrev S16x8192x1 : Shape := ⟨3, ![16, 8192, 1]⟩

abbrev nBuf : Space → Nat
  | .hbm => 199
  | .vmem => 0
  | .smem => 0
  | _ => 0

abbrev hbmTy0_0 (i : Nat) : BufTy := match i % 128 with
  | 0 => ⟨S16x8192x128, .f32⟩
  | 1 => ⟨S16x16384x128, .f32⟩
  | 2 => ⟨S16384, .f32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S2x65536, .i32⟩
  | 14 => ⟨S2x65536, .i32⟩
  | 15 => ⟨S1x65536, .i32⟩
  | 16 => ⟨S65536, .i32⟩
  | 17 => ⟨S1x65536, .i32⟩
  | 18 => ⟨S65536, .i32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S16x65536x128, .f32⟩
  | 28 => ⟨S16x65536x128, .f32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536, .f32⟩
  | 38 => ⟨S65536, .f32⟩
  | 39 => ⟨S65536, .f32⟩
  | 40 => ⟨S_, .f32⟩
  | 41 => ⟨S65536, .f32⟩
  | 42 => ⟨S65536, .f32⟩
  | 43 => ⟨S_, .f32⟩
  | 44 => ⟨S65536, .f32⟩
  | 45 => ⟨S65536, .f32⟩
  | 46 => ⟨S1x65536x1, .f32⟩
  | 47 => ⟨S16x65536x128, .f32⟩
  | 48 => ⟨S16x65536x128, .f32⟩
  | 49 => ⟨S_, .f32⟩
  | 50 => ⟨S16x16384x128, .f32⟩
  | 51 => ⟨S_, .i32⟩
  | 52 => ⟨S65536, .i32⟩
  | 53 => ⟨S65536, .i1⟩
  | 54 => ⟨S_, .i32⟩
  | 55 => ⟨S65536, .i32⟩
  | 56 => ⟨S65536, .i32⟩
  | 57 => ⟨S65536, .i32⟩
  | 58 => ⟨S65536x1, .i32⟩
  | 59 => ⟨S16x16384x128, .f32⟩
  | 60 => ⟨S_, .f32⟩
  | 61 => ⟨S16384, .f32⟩
  | 62 => ⟨S_, .i32⟩
  | 63 => ⟨S65536, .i32⟩
  | 64 => ⟨S65536, .i1⟩
  | 65 => ⟨S_, .i32⟩
  | 66 => ⟨S65536, .i32⟩
  | 67 => ⟨S65536, .i32⟩
  | 68 => ⟨S65536, .i32⟩
  | 69 => ⟨S65536x1, .i32⟩
  | 70 => ⟨S_, .f32⟩
  | 71 => ⟨S65536, .f32⟩
  | 72 => ⟨S16384, .f32⟩
  | 73 => ⟨S_, .f32⟩
  | 74 => ⟨S16384, .f32⟩
  | 75 => ⟨S16384, .f32⟩
  | 76 => ⟨S1x16384x1, .f32⟩
  | 77 => ⟨S16x16384x128, .f32⟩
  | 78 => ⟨S16x16384x128, .f32⟩
  | 79 => ⟨S16x16384x128, .f32⟩
  | 80 => ⟨S16x16384x128, .f32⟩
  | 81 => ⟨S1x1x128, .f32⟩
  | 82 => ⟨S16x16384x128, .f32⟩
  | 83 => ⟨S16x16384x128, .f32⟩
  | 84 => ⟨S_, .f32⟩
  | 85 => ⟨S16x16384x128, .f32⟩
  | 86 => ⟨S16x16384x128, .f32⟩
  | 87 => ⟨S16x16384x128, .f32⟩
  | 88 => ⟨S_, .f32⟩
  | 89 => ⟨S16x16384, .f32⟩
  | 90 => ⟨S16x16384x1, .f32⟩
  | 91 => ⟨S_, .f32⟩
  | 92 => ⟨S16x16384x1, .f32⟩
  | 93 => ⟨S16x16384x1, .f32⟩
  | 94 => ⟨S16x16384x128, .f32⟩
  | 95 => ⟨S16x16384x128, .f32⟩
  | 96 => ⟨S16x16384x128, .f32⟩
  | 97 => ⟨S_, .f32⟩
  | 98 => ⟨S16x16384, .f32⟩
  | 99 => ⟨S16x16384x1, .f32⟩
  | 100 => ⟨S_, .f32⟩
  | 101 => ⟨S16x16384x1, .f32⟩
  | 102 => ⟨S16x16384x1, .f32⟩
  | 103 => ⟨S16x16384x128, .f32⟩
  | 104 => ⟨S16x16384x128, .f32⟩
  | 105 => ⟨S_, .f32⟩
  | 106 => ⟨S16x16384x1, .f32⟩
  | 107 => ⟨S16x16384x1, .f32⟩
  | 108 => ⟨S16x16384x1, .f32⟩
  | 109 => ⟨S16x16384x128, .f32⟩
  | 110 => ⟨S16x16384x128, .f32⟩
  | 111 => ⟨S1x1x128, .f32⟩
  | 112 => ⟨S16x16384x128, .f32⟩
  | 113 => ⟨S16x16384x128, .f32⟩
  | 114 => ⟨S1x1x128, .f32⟩
  | 115 => ⟨S16x16384x128, .f32⟩
  | 116 => ⟨S16x16384x128, .f32⟩
  | 117 => ⟨S1x65536, .i32⟩
  | 118 => ⟨S65536, .i32⟩
  | 119 => ⟨S1x65536, .i32⟩
  | 120 => ⟨S65536, .i32⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S16x8192x128, .f32⟩

abbrev hbmTy0_1 (i : Nat) : BufTy := match i % 128 with
  | 0 => ⟨S65536x1, .i32⟩
  | 1 => ⟨S16x65536x128, .f32⟩
  | 2 => ⟨S16x65536x128, .f32⟩
  | 3 => ⟨S_, .f32⟩
  | 4 => ⟨S16x8192x128, .f32⟩
  | 5 => ⟨S_, .i32⟩
  | 6 => ⟨S65536, .i32⟩
  | 7 => ⟨S65536, .i1⟩
  | 8 => ⟨S_, .i32⟩
  | 9 => ⟨S65536, .i32⟩
  | 10 => ⟨S65536, .i32⟩
  | 11 => ⟨S65536, .i32⟩
  | 12 => ⟨S65536x1, .i32⟩
  | 13 => ⟨S16x8192x128, .f32⟩
  | 14 => ⟨S_, .f32⟩
  | 15 => ⟨S8192, .f32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S_, .f32⟩
  | 25 => ⟨S65536, .f32⟩
  | 26 => ⟨S8192, .f32⟩
  | 27 => ⟨S_, .f32⟩
  | 28 => ⟨S8192, .f32⟩
  | 29 => ⟨S8192, .f32⟩
  | 30 => ⟨S1x8192x1, .f32⟩
  | 31 => ⟨S16x8192x128, .f32⟩
  | 32 => ⟨S16x8192x128, .f32⟩
  | 33 => ⟨S16x8192x128, .f32⟩
  | 34 => ⟨S16x8192x128, .f32⟩
  | 35 => ⟨S1x1x128, .f32⟩
  | 36 => ⟨S16x8192x128, .f32⟩
  | 37 => ⟨S16x8192x128, .f32⟩
  | 38 => ⟨S_, .f32⟩
  | 39 => ⟨S16x8192x128, .f32⟩
  | 40 => ⟨S16x8192x128, .f32⟩
  | 41 => ⟨S16x8192x128, .f32⟩
  | 42 => ⟨S_, .f32⟩
  | 43 => ⟨S16x8192, .f32⟩
  | 44 => ⟨S16x8192x1, .f32⟩
  | 45 => ⟨S_, .f32⟩
  | 46 => ⟨S16x8192x1, .f32⟩
  | 47 => ⟨S16x8192x1, .f32⟩
  | 48 => ⟨S16x8192x128, .f32⟩
  | 49 => ⟨S16x8192x128, .f32⟩
  | 50 => ⟨S16x8192x128, .f32⟩
  | 51 => ⟨S_, .f32⟩
  | 52 => ⟨S16x8192, .f32⟩
  | 53 => ⟨S16x8192x1, .f32⟩
  | 54 => ⟨S_, .f32⟩
  | 55 => ⟨S16x8192x1, .f32⟩
  | 56 => ⟨S16x8192x1, .f32⟩
  | 57 => ⟨S16x8192x128, .f32⟩
  | 58 => ⟨S16x8192x128, .f32⟩
  | 59 => ⟨S_, .f32⟩
  | 60 => ⟨S16x8192x1, .f32⟩
  | 61 => ⟨S16x8192x1, .f32⟩
  | 62 => ⟨S16x8192x1, .f32⟩
  | 63 => ⟨S16x8192x128, .f32⟩
  | 64 => ⟨S16x8192x128, .f32⟩
  | 65 => ⟨S1x1x128, .f32⟩
  | 66 => ⟨S16x8192x128, .f32⟩
  | 67 => ⟨S16x8192x128, .f32⟩
  | 68 => ⟨S1x1x128, .f32⟩
  | 69 => ⟨S16x8192x128, .f32⟩
  | 70 => ⟨S16x8192x128, .f32⟩
  | _ => ⟨S16x8192x128, .f32⟩

abbrev hbmTy (i : Nat) : BufTy := match i / 128 with
  | 0 => hbmTy0_0 i
  | 1 => hbmTy0_1 i
  | _ => ⟨S16x8192x128, .f32⟩

abbrev bufTy : (tb : Table) → Fin (tcTables nBuf tb) → BufTy
  | .hbm, ⟨i, _⟩ => hbmTy i
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_17 : Ref sig .tc := ⟨.hbm, 121, rfl⟩
abbrev main_v85 : Ref sig .tc := ⟨.hbm, 122, rfl⟩
abbrev main_v86 : Ref sig .tc := ⟨.hbm, 123, rfl⟩
abbrev main_c_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_c_20 : Ref sig .tc := ⟨.hbm, 133, rfl⟩
abbrev main_v94 : Ref sig .tc := ⟨.hbm, 134, rfl⟩
abbrev main_v95 : Ref sig .tc := ⟨.hbm, 135, rfl⟩
abbrev main_c_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_22 : Ref sig .tc := ⟨.hbm, 142, rfl⟩
abbrev main_v101 : Ref sig .tc := ⟨.hbm, 143, rfl⟩
abbrev main_c_23 : Ref sig .tc := ⟨.hbm, 144, rfl⟩
abbrev main_v102 : Ref sig .tc := ⟨.hbm, 145, rfl⟩
abbrev main_v103 : Ref sig .tc := ⟨.hbm, 146, rfl⟩
abbrev main_c_24 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_25 : Ref sig .tc := ⟨.hbm, 152, rfl⟩
abbrev main_v108 : Ref sig .tc := ⟨.hbm, 153, rfl⟩
abbrev main_v109 : Ref sig .tc := ⟨.hbm, 154, rfl⟩
abbrev main_cst_26 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call1_cst : Ref sig .tc := ⟨.hbm, 166, rfl⟩
abbrev main_call1_v0 : Ref sig .tc := ⟨.hbm, 167, rfl⟩
abbrev main_v120 : Ref sig .tc := ⟨.hbm, 168, rfl⟩
abbrev main_v121 : Ref sig .tc := ⟨.hbm, 169, rfl⟩
abbrev main_cst_27 : Ref sig .tc := ⟨.hbm, 170, rfl⟩
abbrev main_v122 : Ref sig .tc := ⟨.hbm, 171, rfl⟩
abbrev main_v123 : Ref sig .tc := ⟨.hbm, 172, rfl⟩
abbrev main_cst_28 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_29 : Ref sig .tc := ⟨.hbm, 179, rfl⟩
abbrev main_v129 : Ref sig .tc := ⟨.hbm, 180, rfl⟩
abbrev main_v130 : Ref sig .tc := ⟨.hbm, 181, rfl⟩
abbrev main_cst_30 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_31 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536x1_1 : S65536.BroadcastsInDim S1x65536x1 (![1] : Fin 1 → Fin S1x65536x1.rank)
  bcast_S1x65536x1_S16x65536x128_0_1_2 : S1x65536x1.BroadcastsInDim S16x65536x128 (![0, 1, 2] : Fin 3 → Fin S16x65536x128.rank)
  bcast_S_S16x16384x128 : S_.BroadcastsInDim S16x16384x128 (![] : Fin 0 → Fin S16x16384x128.rank)
  bcast_S_S16384 : S_.BroadcastsInDim S16384 (![] : Fin 0 → Fin S16384.rank)
  bcast_S16384_S1x16384x1_1 : S16384.BroadcastsInDim S1x16384x1 (![1] : Fin 1 → Fin S1x16384x1.rank)
  bcast_S1x16384x1_S16x16384x128_0_1_2 : S1x16384x1.BroadcastsInDim S16x16384x128 (![0, 1, 2] : Fin 3 → Fin S16x16384x128.rank)
  bcast_S128_S1x1x128_2 : S128.BroadcastsInDim S1x1x128 (![2] : Fin 1 → Fin S1x1x128.rank)
  bcast_S1x1x128_S16x16384x128_0_1_2 : S1x1x128.BroadcastsInDim S16x16384x128 (![0, 1, 2] : Fin 3 → Fin S16x16384x128.rank)
  reducesTo_S16x16384x128_S16x16384_d2 : S16x16384x128.ReducesTo [2] S16x16384
  h_S_ : 0 < S_.numel
  bcast_S16x16384_S16x16384x1_0_1 : S16x16384.BroadcastsInDim S16x16384x1 (![0, 1] : Fin 2 → Fin S16x16384x1.rank)
  bcast_S_S16x16384x1 : S_.BroadcastsInDim S16x16384x1 (![] : Fin 0 → Fin S16x16384x1.rank)
  bcast_S16x16384x1_S16x16384x128_0_1_2 : S16x16384x1.BroadcastsInDim S16x16384x128 (![0, 1, 2] : Fin 3 → Fin S16x16384x128.rank)
  bcast_S_S16x8192x128 : S_.BroadcastsInDim S16x8192x128 (![] : Fin 0 → Fin S16x8192x128.rank)
  bcast_S_S8192 : S_.BroadcastsInDim S8192 (![] : Fin 0 → Fin S8192.rank)
  bcast_S8192_S1x8192x1_1 : S8192.BroadcastsInDim S1x8192x1 (![1] : Fin 1 → Fin S1x8192x1.rank)
  bcast_S1x8192x1_S16x8192x128_0_1_2 : S1x8192x1.BroadcastsInDim S16x8192x128 (![0, 1, 2] : Fin 3 → Fin S16x8192x128.rank)
  bcast_S1x1x128_S16x8192x128_0_1_2 : S1x1x128.BroadcastsInDim S16x8192x128 (![0, 1, 2] : Fin 3 → Fin S16x8192x128.rank)
  reducesTo_S16x8192x128_S16x8192_d2 : S16x8192x128.ReducesTo [2] S16x8192
  bcast_S16x8192_S16x8192x1_0_1 : S16x8192.BroadcastsInDim S16x8192x1 (![0, 1] : Fin 2 → Fin S16x8192x1.rank)
  bcast_S_S16x8192x1 : S_.BroadcastsInDim S16x8192x1 (![] : Fin 0 → Fin S16x8192x1.rank)
  bcast_S16x8192x1_S16x8192x128_0_1_2 : S16x8192x1.BroadcastsInDim S16x8192x128 (![0, 1, 2] : Fin 3 → Fin S16x8192x128.rank)
  gather_S16x8192x128_S65536x1_S16x65536x128_02_1_n_n_1_1_161128_wf : GatherDims.WF S16x8192x128 S65536x1 S16x65536x128 [0, 2] [1] [] [1] [] 1 ![16, 1, 128]
  dot_S16x65536x128_S128x128_S16x65536x128_2_1_01_0_n_n_wf : DotDims.WF S16x65536x128 S128x128 S16x65536x128 [2] [1] [0, 1] [0] [] []
  gather_S16384_S65536x1_S65536_n_0_n_n_0_1_1_wf : GatherDims.WF S16384 S65536x1 S65536 [] [0] [] [0] [] 1 ![1]
  scatter_S16x16384x128_S65536x1_S16x65536x128_02_1_1_1_wf : ScatterDims.WF S16x16384x128 S65536x1 S16x65536x128 [0, 2] [1] [1] 1
  scatter_S16384_S65536x1_S65536_n_0_0_1_wf : ScatterDims.WF S16384 S65536x1 S65536 [] [0] [0] 1
  dot_S16x16384x128_S128x128_S16x16384x128_2_1_01_0_n_n_wf : DotDims.WF S16x16384x128 S128x128 S16x16384x128 [2] [1] [0, 1] [0] [] []
  gather_S16x16384x128_S65536x1_S16x65536x128_02_1_n_n_1_1_161128_wf : GatherDims.WF S16x16384x128 S65536x1 S16x65536x128 [0, 2] [1] [] [1] [] 1 ![16, 1, 128]
  scatter_S16x8192x128_S65536x1_S16x65536x128_02_1_1_1_wf : ScatterDims.WF S16x8192x128 S65536x1 S16x65536x128 [0, 2] [1] [1] 1
  scatter_S8192_S65536x1_S65536_n_0_0_1_wf : ScatterDims.WF S8192 S65536x1 S65536 [] [0] [0] 1
  dot_S16x8192x128_S128x128_S16x8192x128_2_1_01_0_n_n_wf : DotDims.WF S16x8192x128 S128x128 S16x8192x128 [2] [1] [0, 1] [0] [] []

variable [Facts₀]

def gather_S16x8192x128_S65536x1_S16x65536x128_02_1_n_n_1_1_161128 : GatherDims S16x8192x128 S65536x1 S16x65536x128 where
  offsetDims := [0, 2]
  collapsedSliceDims := [1]
  operandBatchingDims := []
  startIndicesBatchingDims := []
  startIndexMap := [1]
  indexVectorDim := 1
  sliceSizes := ![16, 1, 128]
  wf := gather_S16x8192x128_S65536x1_S16x65536x128_02_1_n_n_1_1_161128_wf
def dot_S16x65536x128_S128x128_S16x65536x128_2_1_01_0_n_n : DotDims S16x65536x128 S128x128 S16x65536x128 where
  lhsContracting := [2]
  rhsContracting := [1]
  lhsNonContracting := [0, 1]
  rhsNonContracting := [0]
  lhsBatch := []
  rhsBatch := []
  wf := dot_S16x65536x128_S128x128_S16x65536x128_2_1_01_0_n_n_wf
def gather_S16384_S65536x1_S65536_n_0_n_n_0_1_1 : GatherDims S16384 S65536x1 S65536 where
  offsetDims := []
  collapsedSliceDims := [0]
  operandBatchingDims := []
  startIndicesBatchingDims := []
  startIndexMap := [0]
  indexVectorDim := 1
  sliceSizes := ![1]
  wf := gather_S16384_S65536x1_S65536_n_0_n_n_0_1_1_wf
def scatter_S16x16384x128_S65536x1_S16x65536x128_02_1_1_1 : ScatterDims S16x16384x128 S65536x1 S16x65536x128 where
  updateWindowDims := [0, 2]
  insertedWindowDims := [1]
  scatterDimsToOperandDims := [1]
  indexVectorDim := 1
  wf := scatter_S16x16384x128_S65536x1_S16x65536x128_02_1_1_1_wf
def scatter_S16384_S65536x1_S65536_n_0_0_1 : ScatterDims S16384 S65536x1 S65536 where
  updateWindowDims := []
  insertedWindowDims := [0]
  scatterDimsToOperandDims := [0]
  indexVectorDim := 1
  wf := scatter_S16384_S65536x1_S65536_n_0_0_1_wf
def dot_S16x16384x128_S128x128_S16x16384x128_2_1_01_0_n_n : DotDims S16x16384x128 S128x128 S16x16384x128 where
  lhsContracting := [2]
  rhsContracting := [1]
  lhsNonContracting := [0, 1]
  rhsNonContracting := [0]
  lhsBatch := []
  rhsBatch := []
  wf := dot_S16x16384x128_S128x128_S16x16384x128_2_1_01_0_n_n_wf
def gather_S16x16384x128_S65536x1_S16x65536x128_02_1_n_n_1_1_161128 : GatherDims S16x16384x128 S65536x1 S16x65536x128 where
  offsetDims := [0, 2]
  collapsedSliceDims := [1]
  operandBatchingDims := []
  startIndicesBatchingDims := []
  startIndexMap := [1]
  indexVectorDim := 1
  sliceSizes := ![16, 1, 128]
  wf := gather_S16x16384x128_S65536x1_S16x65536x128_02_1_n_n_1_1_161128_wf
def scatter_S16x8192x128_S65536x1_S16x65536x128_02_1_1_1 : ScatterDims S16x8192x128 S65536x1 S16x65536x128 where
  updateWindowDims := [0, 2]
  insertedWindowDims := [1]
  scatterDimsToOperandDims := [1]
  indexVectorDim := 1
  wf := scatter_S16x8192x128_S65536x1_S16x65536x128_02_1_1_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S16x8192x128_S128x128_S16x8192x128_2_1_01_0_n_n : DotDims S16x8192x128 S128x128 S16x8192x128 where
  lhsContracting := [2]
  rhsContracting := [1]
  lhsNonContracting := [0, 1]
  rhsNonContracting := [0]
  lhsBatch := []
  rhsBatch := []
  wf := dot_S16x8192x128_S128x128_S16x8192x128_2_1_01_0_n_n_wf

class Facts : Prop extends Facts₀ where

variable [Facts]
-- ==== Proof.KernelRun.lean ====
/-
  The run of the four-region program with its two results named.

  Every weakly fair execution of the program terminates without a fault, and at the end each buffer that
  outlives the run holds the contents the fold through the program's segments gives it: a stretch of host
  operations applies those operations, a region replaces its arrays by what its write-backs leave and keeps
  every other buffer.  Here that fact is stated at the two result buffers (the updated rows of the nodes of the
  second kind, written by the last region, and of the first kind, written by the second region) beside the
  fifteen argument arrays, which end as launched.
-/
import proofs.«147783_j86260123173231_1_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result buffer at the end-of-run contents of the fold (`W8`) and the arguments unchanged. -/
theorem run_results : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Results

end
-- ==== Proof.Layer.lean ====
/-
  The layer, written once as plain functions on the extended reals.

  A message entry is a source row projected by one row of a weight matrix and scaled:
  `(∑ₖ x k · w k) · s`.  A node row is updated by adding to it the clipped sum of its own projection, its
  aggregate divided by `max(count, 1)`, and a bias, and is then normalised over its 128 entries: subtract the
  mean, divide by `sqrt(variance + ε)`, multiply by a gain and add a shift.  The array forms read these row
  functions at the coordinates `(batch, node, feature)`; every sum is over the 128 features, so no sum here
  depends on how an array is cut into blocks.  The float literals are kept as their bit patterns: the same
  pattern stands on both sides of every equation, so none is ever evaluated here.
-/
import Idealize.ShloMosaic.PureOps.Ideal
import Idealize.ShloMosaic.Lib.ValueIdx

noncomputable section

namespace Cert.Layer

open Idealize.ShloMosaic Idealize.ShloMosaic.ValueIdx

/-- The literal `0.0`. -/
abbrev lit0 : EReal := Ideal.ofBits .f32 0x00000000#32
/-- The literal `1.0`. -/
abbrev lit1 : EReal := Ideal.ofBits .f32 0x3F800000#32
/-- The literal `128.0`, the length of a feature row. -/
abbrev lit128 : EReal := Ideal.ofBits .f32 0x43000000#32
/-- The literal the variance is offset by before the square root. -/
abbrev litEps : EReal := Ideal.ofBits .f32 0x3727C5AC#32

/-- One entry of a message: the source row `x` against the weight row `w`, times the edge's scale `s`. -/
def msgEntry (x w : Fin 128 → EReal) (s : EReal) : EReal := (∑ k : Fin 128, x k * w k) * s

/-- A node row before normalisation: the row plus the clipped sum of its projection by `W`, its aggregate over
    `max(cnt, 1)` and the bias. -/
def preNorm (h agg : Fin 128 → EReal) (cnt : EReal) (W : Fin 128 → Fin 128 → EReal) (b : Fin 128 → EReal)
    (o : Fin 128) : EReal :=
  h o + max ((∑ k : Fin 128, h k * W o k) + Ideal.div (agg o) (max cnt lit1) + b o) lit0

/-- The mean of a row. -/
def rowMean (y : Fin 128 → EReal) : EReal := Ideal.div (∑ k : Fin 128, y k) lit128

/-- The variance of a row about its mean. -/
def rowVar (y : Fin 128 → EReal) : EReal :=
  Ideal.div (∑ k : Fin 128, (y k - rowMean y) * (y k - rowMean y)) lit128

/-- The normalised row: centred, divided by `sqrt(variance + ε)`, scaled by `g` and shifted by `β`. -/
def normRow (y g β : Fin 128 → EReal) (o : Fin 128) : EReal :=
  Ideal.div (y o - rowMean y) (Ideal.sqrt (rowVar y + litEps)) * g o + β o

/-- A node row after the whole update. -/
def nodeRow (h agg : Fin 128 → EReal) (cnt : EReal) (W : Fin 128 → Fin 128 → EReal) (b g β : Fin 128 → EReal)
    (o : Fin 128) : EReal :=
  normRow (preNorm h agg cnt W b) g β o

/-- The messages of all 65536 edges in all 16 batches: entry `(b, e, o)` is edge `e`'s source row in batch `b`
    against row `o` of `w`, times the edge's scale. -/
def msgArr (x : (⟨3, ![16, 65536, 128]⟩ : Shape).Idx → EReal) (w : (⟨2, ![128, 128]⟩ : Shape).Idx → EReal)
    (s : (⟨1, ![65536]⟩ : Shape).Idx → EReal) : (⟨3, ![16, 65536, 128]⟩ : Shape).Idx → EReal :=
  fun i => msgEntry (fun k => x (ix3 (i 0) (i 1) k)) (fun k => w (ix2 (i 2) k)) (s (ix1 (i 1)))

/-- The updated rows of the 16384 nodes of the first kind. -/
def nodeArrE (h agg : (⟨3, ![16, 16384, 128]⟩ : Shape).Idx → EReal) (cnt : (⟨1, ![16384]⟩ : Shape).Idx → EReal)
    (W : (⟨2, ![128, 128]⟩ : Shape).Idx → EReal) (b g β : (⟨1, ![128]⟩ : Shape).Idx → EReal) :
    (⟨3, ![16, 16384, 128]⟩ : Shape).Idx → EReal :=
  fun i => nodeRow (fun k => h (ix3 (i 0) (i 1) k)) (fun k => agg (ix3 (i 0) (i 1) k)) (cnt (ix1 (i 1)))
    (fun o k => W (ix2 o k)) (fun o => b (ix1 o)) (fun o => g (ix1 o)) (fun o => β (ix1 o)) (i 2)

/-- The updated rows of the 8192 nodes of the second kind. -/
def nodeArrD (h agg : (⟨3, ![16, 8192, 128]⟩ : Shape).Idx → EReal) (cnt : (⟨1, ![8192]⟩ : Shape).Idx → EReal)
    (W : (⟨2, ![128, 128]⟩ : Shape).Idx → EReal) (b g β : (⟨1, ![128]⟩ : Shape).Idx → EReal) :
    (⟨3, ![16, 8192, 128]⟩ : Shape).Idx → EReal :=
  fun i => nodeRow (fun k => h (ix3 (i 0) (i 1) k)) (fun k => agg (ix3 (i 0) (i 1) k)) (cnt (ix1 (i 1)))
    (fun o k => W (ix2 o k)) (fun o => b (ix1 o)) (fun o => g (ix1 o)) (fun o => β (ix1 o)) (i 2)

end Cert.Layer

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.MsgBlock.lean ====
/-
  The message kernel's body read at an index.

  One grid point of the message kernel loads a block of 8192 gathered source rows, the 128 × 128 weight and the
  8192 scales of those rows, multiplies the block by the transposed weight and scales each row.  Entry
  `(r, o)` of the stored block is therefore `(∑ₖ block r k · weight o k) · scale r`: the message entry of the
  specification at the block's own coordinates.
-/
import proofs.«147783_j86260123173231_1_alg».proof.Proof.Gen.KernelIdeal.Skeleton
import proofs.«147783_j86260123173231_1_alg».proof.Proof.Layer
import proofs.«147783_j86260123173231_1_alg».proof.Proof.LibColumn
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx Cert.Layer Cert.Layer.Column

/-- The left operand's index of the 8192-row product keeps the output's row … -/
theorem lhs8192_0 (i : S8192x128.Idx) (q : dot_S8192x128_S128x128_S8192x128_1_1_0_0_n_n.contr.Idx) : (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide),
    dif_pos (show (0 : Fin S8192x128.rank) ∈ dot_S8192x128_S128x128_S8192x128_1_1_0_0_n_n.lhsNonContracting by decide)]
  rfl
/-- … and takes the summed feature as its column. -/
theorem lhs8192_1 (i : S8192x128.Idx) (q : dot_S8192x128_S128x128_S8192x128_1_1_0_0_n_n.contr.Idx) : (dot_S8192x128_S128x128_S8192x128_1_1_0_0_n_n.lhsIdx i q 1).val = (q ⟨0, by decide⟩).val :=
  dot_S8192x128_S128x128_S8192x128_1_1_0_0_n_n.lhsIdx_val_of_single rfl i q
/-- The right operand's index takes the output's column as its row … -/
theorem rhs8192_0 (i : S8192x128.Idx) (q : dot_S8192x128_S128x128_S8192x128_1_1_0_0_n_n.contr.Idx) : (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide),
    dif_pos (show (0 : Fin S128x128.rank) ∈ dot_S8192x128_S128x128_S8192x128_1_1_0_0_n_n.rhsNonContracting by decide)]
  rfl
/-- … and the summed feature as its column: the weight is used transposed. -/
theorem rhs8192_1 (i : S8192x128.Idx) (q : dot_S8192x128_S128x128_S8192x128_1_1_0_0_n_n.contr.Idx) : (dot_S8192x128_S128x128_S8192x128_1_1_0_0_n_n.rhsIdx i q 1).val = (q ⟨0, by decide⟩).val :=
  dot_S8192x128_S128x128_S8192x128_1_1_0_0_n_n.rhsIdx_val_of_single rfl i q

/-- The product of a 8192-row block with the transposed weight, accumulated from zero, read at `(r, o)`: the
    sum over the 128 features of the block's row `r` against the weight's row `o`. -/
theorem matmul8192_apply (x : FVec Ideal S8192x128 .bf16) (w : FVec Ideal S128x128 .bf16) (r : Fin 8192) (o : Fin 128) :
    matmul dot_S8192x128_S128x128_S8192x128_1_1_0_0_n_n none x w (constant S8192x128 .f32 0x00000000#32) (ix2 r o)
      = ∑ k : Fin 128, x (ix2 r k) * w (ix2 o k) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 r o) ((contrEquiv1 dot_S8192x128_S128x128_S8192x128_1_1_0_0_n_n 128 rfl rfl).symm k) = ix2 r k :=
    funext fun a => Fin.ext (by
      match a with
      | ⟨0, _⟩ => exact lhs8192_0 _ _
      | ⟨1, _⟩ => exact (lhs8192_1 _ _).trans hk)
  have er : dot_S8192x128_S128x128_S8192x128_1_1_0_0_n_n.rhsIdx (ix2 r o) ((contrEquiv1 dot_S8192x128_S128x128_S8192x128_1_1_0_0_n_n 128 rfl rfl).symm k) = ix2 o k :=
    funext fun a => Fin.ext (by
      match a with
      | ⟨0, _⟩ => exact rhs8192_0 _ _
      | ⟨1, _⟩ => exact (rhs8192_1 _ _).trans hk)
  rw [el, er]

/-- The message kernel's stored block (region of the first pass) at `(u, r, o)`: the format changes are the identity on the
    extended reals and the unit axis carries nothing, so what is left is the block's row `r` against the
    weight's row `o`, summed over the features, times the scale of row `r`. -/
theorem msg_block0 (x0 : Vec Ideal S1x8192x128 .f32) (x1 : Vec Ideal S128x128 .f32) (x2 : Vec Ideal S8192 .f32)
    (u : Fin 1) (r : Fin 8192) (o : Fin 128) :
    k0_pay1 x0 x1 x2 (ix3 u r o)
      = msgEntry (fun k => x0 (ix3 (0 : Fin 1) r k)) (fun k => x1 (ix2 o k)) (x2 (ix1 r)) := by
  unfold k0_pay1
  rw [shapeCast_ab_1ab_apply, mulf_apply, matmul8192_apply, broadcastTo_a1_ab_apply, shapeCast_a_a1_apply, shapeCast_self]
  unfold msgEntry
  simp only [truncf_apply, shapeCast_1ab_ab_apply]

/-- The message kernel's stored block (region of the second pass) at `(u, r, o)`: the format changes are the identity on the
    extended reals and the unit axis carries nothing, so what is left is the block's row `r` against the
    weight's row `o`, summed over the features, times the scale of row `r`. -/
theorem msg_block2 (x0 : Vec Ideal S1x8192x128 .f32) (x1 : Vec Ideal S128x128 .f32) (x2 : Vec Ideal S8192 .f32)
    (u : Fin 1) (r : Fin 8192) (o : Fin 128) :
    k2_pay1 x0 x1 x2 (ix3 u r o)
      = msgEntry (fun k => x0 (ix3 (0 : Fin 1) r k)) (fun k => x1 (ix2 o k)) (x2 (ix1 r)) := by
  unfold k2_pay1
  rw [shapeCast_ab_1ab_apply, mulf_apply, matmul8192_apply, broadcastTo_a1_ab_apply, shapeCast_a_a1_apply, shapeCast_self]
  unfold msgEntry
  simp only [truncf_apply, shapeCast_1ab_ab_apply]

end Cert.KernelIdeal.Blocks

end
-- ==== Proof.RegionMsg0.lean ====
/-
  The message region of pass one, from blocks to the array.

  The region runs the message kernel at 16 × 8 grid points; point `(b, j)` reads rows `8192 j … 8192 j + 8191` of
  batch `b` of the gathered rows of the nodes of the second kind, the whole weight, and the scales of the same edges, and writes the same rows of the
  output.  The output blocks tile the 16 × 65536 × 128 message array, and each block is the message array of the
  specification restricted to its rows: so after the region the array IS that function of the three arrays the
  region found on entry.  Stated at any entry contents `V`.
-/
import proofs.«147783_j86260123173231_1_alg».proof.Proof.Gen.KernelIdeal.Frame
import proofs.«147783_j86260123173231_1_alg».proof.Proof.Layer
import proofs.«147783_j86260123173231_1_alg».proof.Proof.MsgBlock
import Idealize.ShloMosaic.Lib.Pipeline.Value

set_option maxRecDepth 16384

noncomputable section

namespace Cert.KernelIdeal.Regions

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3_0 : (![0, 0, 0] : Fin 3 → Nat) = fun _ => 0 := funext fun a => by fin_cases a <;> rfl
theorem zeros2_0 : (![0, 0] : Fin 2 → Nat) = fun _ => 0 := funext fun a => by fin_cases a <;> rfl
theorem zeros1_0 : (![0] : Fin 1 → Nat) = fun _ => 0 := funext fun a => by fin_cases a <;> rfl

/-- The printed index maps, decided over the 128 grid points: the row block moves with the output's block, the
    weight's block is always the whole weight, the scales' block is the output's block along the edges. -/
theorem idx_facts0 : ∀ t : Fin cfg0.N,
    win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 1) = win0_3.index t (1 : Fin 3)
    ∧ win0_3.index t (0 : Fin 3) ≤ 15 ∧ win0_3.index t (1 : Fin 3) ≤ 7 :=
  (by decide +kernel : ∀ t : Fin grid0.N, _)

/-- Every (batch, edge-block) pair is some grid point's output block. -/
theorem idx_onto0 : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- What grid point `t` writes back is block `t` of the message array of the region's three input arrays. -/
theorem flushed0 (c : Dev nD) (t : Fin cfg0.N) :
    (dat0 V c).flushed 3 t
      = ((cfg0.win 3).blk t).view.read (Elt Ideal) (msgArr (V c main_v10) (V c main_arg3) (V c main_v23)) := by
  show (cfg0.win 3).cut (grid0.coords t) ((dat0 V c).after 3 t) = _
  rw [after0_3]
  unfold out0_3
  rw [View.canon_unit_zero zeros3_0]
  simp only [View.ld_unit_zero (S := S1x8192x128) zeros3_0, View.ld_unit_zero (S := S128x128) zeros2_0,
    View.ld_unit_zero (S := S8192) zeros1_0]
  obtain ⟨e0, e1, e2, e3, e4, e5, e6, e7, e8⟩ := idx_facts0 t
  funext j
  obtain ⟨u, r, o, rfl⟩ : ∃ (u : Fin 1) (r : Fin 8192) (o : Fin 128), j = ix3 u r o := ⟨j 0, j 1, j 2, eq_ix3 j⟩
  refine (msg_block0 (iblk0 V c 0 t) (iblk0 V c 1 t) (iblk0 V c 2 t) u r o).trans ?_
  show _ = msgArr (V c main_v10) (V c main_arg3) (V c main_v23) (((cfg0.win 3).blk t).view.emb (ix3 u r o))
  unfold msgArr
  generalize hE : ((cfg0.win 3).blk t).view.emb (ix3 u r o) = E
  have E0 : (E 0).val = win0_3.index t (0 : Fin 3) * 1 + 1 * u.val := by rw [← hE]; rfl
  have E1 : (E 1).val = win0_3.index t (1 : Fin 3) * 8192 + 1 * r.val := by rw [← hE]; rfl
  have E2 : (E 2).val = win0_3.index t (2 : Fin 3) * 128 + 1 * o.val := by rw [← hE]; rfl
  have hu : u.val = 0 := by omega
  congr 1
  · funext k
    show V c main_v10 (((cfg0.win 0).blk t).view.emb (ix3 (0 : Fin 1) r k)) = V c main_v10 (ix3 (E 0) (E 1) k)
    refine congrArg (V c main_v10) (funext fun a => Fin.ext ?_)
    match a with
    | ⟨0, _⟩ => show win0_0.index t (0 : Fin 3) * 1 + 1 * 0 = (E 0).val; omega
    | ⟨1, _⟩ => show win0_0.index t (1 : Fin 3) * 8192 + 1 * r.val = (E 1).val; omega
    | ⟨2, _⟩ => show win0_0.index t (2 : Fin 3) * 128 + 1 * k.val = k.val; omega
  · funext k
    show V c main_arg3 (((cfg0.win 1).blk t).view.emb (ix2 o k)) = V c main_arg3 (ix2 (E 2) k)
    refine congrArg (V c main_arg3) (funext fun a => Fin.ext ?_)
    match a with
    | ⟨0, _⟩ => show win0_1.index t (0 : Fin 2) * 128 + 1 * o.val = (E 2).val; omega
    | ⟨1, _⟩ => show win0_1.index t (1 : Fin 2) * 128 + 1 * k.val = k.val; omega
  · show V c main_v23 (((cfg0.win 2).blk t).view.emb (ix1 r)) = V c main_v23 (ix1 (E 1))
    refine congrArg (V c main_v23) (funext fun a => Fin.ext ?_)
    match a with
    | ⟨0, _⟩ => show win0_2.index t (0 : Fin 1) * 8192 + 1 * r.val = (E 1).val; omega

/-- An index of the message array is in grid point `t`'s output block iff each coordinate is in the block's range. -/
theorem mem_blk0 (t : Fin cfg0.N) (i : S16x65536x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v24).slice (win0_3.rect t)).set ↔ _
  rw [View.set_slice_whole, Rect.mem_set_unit]
  exact Iff.rfl

/-- Every index of the message array is in some grid point's output block: the blocks tile the array. -/
theorem cover0 (i : S16x65536x128.Idx) :
    ∃ t : Fin cfg0.N, (cfg0.win 3).flush t = true ∧ i ∈ ((cfg0.win 3).blk t).view.set := by
  have hi0 : (i 0).val < 16 := (i 0).isLt
  have hi1 : (i 1).val < 65536 := (i 1).isLt
  have hi2 : (i 2).val < 128 := (i 2).isLt
  obtain ⟨t, ht⟩ := idx_onto0 ⟨(i 0).val, hi0⟩ ⟨(i 1).val / 8192, by omega⟩
  have q0 : win0_3.index t (0 : Fin 3) = (i 0).val := congrFun ht 0
  have q1 : win0_3.index t (1 : Fin 3) = (i 1).val / 8192 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-- THE MESSAGE ARRAY after the region: the message array of the region's three input arrays as it finds them. -/
theorem final0 (c : Dev nD) :
    (dat0 V c).arrAt 3 cfg0.N = msgArr (V c main_v10) (V c main_arg3) (V c main_v23) :=
  (dat0 V c).arrAt_eq_of_cover 3 (msgArr (V c main_v10) (V c main_arg3) (V c main_v23)) (fun t _ => flushed0 V c t) cover0

end Cert.KernelIdeal.Regions

end
-- ==== Proof.NodeBlock.lean ====
/-
  The node kernel's body read at an index.

  One grid point of the node kernel loads 2048 rows of the node array, the same rows of the aggregate, their
  2048 counts, a 128 × 128 weight and three 128-vectors (bias, gain, shift).  Every reduction in the body runs
  along a row's 128 features, so entry `(r, o)` of the stored block depends on row `r` of the two row blocks,
  count `r`, and the small operands only: it is the specification's node row at the block's own coordinates.
-/
import proofs.«147783_j86260123173231_1_alg».proof.Proof.Gen.KernelIdeal.Skeleton
import proofs.«147783_j86260123173231_1_alg».proof.Proof.Layer
import proofs.«147783_j86260123173231_1_alg».proof.Proof.LibColumn
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx Cert.Layer Cert.Layer.Column

/-- The left operand's index of the 2048-row product keeps the output's row … -/
theorem lhs2048_0 (i : S2048x128.Idx) (q : dot_S2048x128_S128x128_S2048x128_1_1_0_0_n_n.contr.Idx) : (dot_S2048x128_S128x128_S2048x128_1_1_0_0_n_n.lhsIdx i q 0).val = (i 0).val := by
  unfold DotDims.lhsIdx
  rw [dif_neg (show ¬(0 : Fin S2048x128.rank) ∈ dot_S2048x128_S128x128_S2048x128_1_1_0_0_n_n.lhsBatch by decide),
    dif_pos (show (0 : Fin S2048x128.rank) ∈ dot_S2048x128_S128x128_S2048x128_1_1_0_0_n_n.lhsNonContracting by decide)]
  rfl
/-- … and takes the summed feature as its column. -/
theorem lhs2048_1 (i : S2048x128.Idx) (q : dot_S2048x128_S128x128_S2048x128_1_1_0_0_n_n.contr.Idx) : (dot_S2048x128_S128x128_S2048x128_1_1_0_0_n_n.lhsIdx i q 1).val = (q ⟨0, by decide⟩).val :=
  dot_S2048x128_S128x128_S2048x128_1_1_0_0_n_n.lhsIdx_val_of_single rfl i q
/-- The right operand's index takes the output's column as its row … -/
theorem rhs2048_0 (i : S2048x128.Idx) (q : dot_S2048x128_S128x128_S2048x128_1_1_0_0_n_n.contr.Idx) : (dot_S2048x128_S128x128_S2048x128_1_1_0_0_n_n.rhsIdx i q 0).val = (i 1).val := by
  unfold DotDims.rhsIdx
  rw [dif_neg (show ¬(0 : Fin S128x128.rank) ∈ dot_S2048x128_S128x128_S2048x128_1_1_0_0_n_n.rhsBatch by decide),
    dif_pos (show (0 : Fin S128x128.rank) ∈ dot_S2048x128_S128x128_S2048x128_1_1_0_0_n_n.rhsNonContracting by decide)]
  rfl
/-- … and the summed feature as its column: the weight is used transposed. -/
theorem rhs2048_1 (i : S2048x128.Idx) (q : dot_S2048x128_S128x128_S2048x128_1_1_0_0_n_n.contr.Idx) : (dot_S2048x128_S128x128_S2048x128_1_1_0_0_n_n.rhsIdx i q 1).val = (q ⟨0, by decide⟩).val :=
  dot_S2048x128_S128x128_S2048x128_1_1_0_0_n_n.rhsIdx_val_of_single rfl i q

/-- The product of a 2048-row block with the transposed weight, accumulated from zero, read at `(r, o)`: the
    sum over the 128 features of the block's row `r` against the weight's row `o`. -/
theorem matmul2048_apply (x : FVec Ideal S2048x128 .bf16) (w : FVec Ideal S128x128 .bf16) (r : Fin 2048) (o : Fin 128) :
    matmul dot_S2048x128_S128x128_S2048x128_1_1_0_0_n_n none x w (constant S2048x128 .f32 0x00000000#32) (ix2 r o)
      = ∑ k : Fin 128, x (ix2 r k) * w (ix2 o k) := by
  simp only [matmul]
  rw [Ideal.matmul_constant_zero_apply, ← Equiv.sum_comp (contrEquiv1 dot_S2048x128_S128x128_S2048x128_1_1_0_0_n_n 128 rfl rfl).symm]
  refine Finset.sum_congr rfl fun k _ => ?_
  have hk := contrEquiv1_symm_val dot_S2048x128_S128x128_S2048x128_1_1_0_0_n_n 128 rfl rfl k
  have el : dot_S2048x128_S128x128_S2048x128_1_1_0_0_n_n.lhsIdx (ix2 r o) ((contrEquiv1 dot_S2048x128_S128x128_S2048x128_1_1_0_0_n_n 128 rfl rfl).symm k) = ix2 r k :=
    funext fun a => Fin.ext (by
      match a with
      | ⟨0, _⟩ => exact lhs2048_0 _ _
      | ⟨1, _⟩ => exact (lhs2048_1 _ _).trans hk)
  have er : dot_S2048x128_S128x128_S2048x128_1_1_0_0_n_n.rhsIdx (ix2 r o) ((contrEquiv1 dot_S2048x128_S128x128_S2048x128_1_1_0_0_n_n 128 rfl rfl).symm k) = ix2 o k :=
    funext fun a => Fin.ext (by
      match a with
      | ⟨0, _⟩ => exact rhs2048_0 _ _
      | ⟨1, _⟩ => exact (rhs2048_1 _ _).trans hk)
  rw [el, er]

/-- A sum along the 128 features of a 2048-row block, read at row `r`. -/
theorem rowsum2048 (src : FVec Ideal S2048x128 .f32) (r : Fin 2048) :
    multiReduction .add [1] S2048 src 0x00000000#32 reduces_S2048x128_S2048 (.inl rfl) rfl (ix1 r)
      = ∑ k : Fin 128, src (ix2 r k) := by
  refine (Ideal.multiReduction_add_single src 0x00000000#32 reduces_S2048x128_S2048 (.inl rfl) rfl (ix1 r)).trans ?_
  refine Finset.sum_congr rfl fun k _ => congrArg src ?_
  funext a; apply Fin.ext
  match a with
  | ⟨0, _⟩ => rfl
  | ⟨1, _⟩ => rfl

/-! ## The node kernel of pass one -/

/-- The row before normalisation at `(r, o)`: the loaded row plus the clipped sum of its projection, its
    aggregate over `max(count, 1)` and the bias — the casts between float formats are the identity. -/
theorem pre_block1 (v0 v2 : Vec Ideal S1x2048x128 .f32) (v4 : Vec Ideal S2048 .f32) (v11 : Vec Ideal S128x128 .f32)
    (v16 : Vec Ideal S128 .f32) (r : Fin 2048) (o : Fin 128) :
    k1_pay2 v0 v2 v4 v11 v16 (ix2 r o)
      = preNorm (fun k => v0 (ix3 (0 : Fin 1) r k)) (fun k => v2 (ix3 (0 : Fin 1) r k)) (v4 (ix1 r))
          (fun o k => v11 (ix2 o k)) (fun o => v16 (ix1 o)) o := by
  unfold k1_pay2
  rw [addf_apply, maximumf_apply, addf_apply, addf_apply, matmul2048_apply, divf_apply, broadcastTo_a1_ab_apply,
    shapeCast_a_a1_apply, maximumf_apply, shapeCast_self, broadcastTo_1b_ab_apply, shapeCast_a_1a_apply,
    shapeCast_1ab_ab_apply, shapeCast_1ab_ab_apply]
  unfold preNorm
  simp only [truncf_apply, shapeCast_1ab_ab_apply, broadcast_apply]
  rfl

/-- The mean column at `(r, u)`: the sum of row `r` before normalisation, over 128. -/
theorem mean_block1 (v0 v2 : Vec Ideal S1x2048x128 .f32) (v4 : Vec Ideal S2048 .f32) (v11 : Vec Ideal S128x128 .f32)
    (v16 : Vec Ideal S128 .f32) (r : Fin 2048) (u : Fin 1) :
    k1_pay5 v0 v2 v4 v11 v16 (ix2 r u) = rowMean (fun k => k1_pay2 v0 v2 v4 v11 v16 (ix2 r k)) := by
  unfold k1_pay5
  rw [divf_apply, shapeCast_a_a1_apply, rowsum2048]
  rfl

/-- The variance column at `(r, u)`: the sum of the squared deviations of row `r` from its mean, over 128. -/
theorem var_block1 (v0 v2 : Vec Ideal S1x2048x128 .f32) (v4 : Vec Ideal S2048 .f32) (v11 : Vec Ideal S128x128 .f32)
    (v16 : Vec Ideal S128 .f32) (r : Fin 2048) (u : Fin 1) :
    k1_pay6 v0 v2 v4 v11 v16 (ix2 r u) = rowVar (fun k => k1_pay2 v0 v2 v4 v11 v16 (ix2 r k)) := by
  unfold k1_pay6
  rw [divf_apply, shapeCast_a_a1_apply, rowsum2048]
  unfold rowVar
  simp only [mulf_apply, subf_apply, broadcastTo_a1_ab_apply, mean_block1]
  rfl

/-- The mean spread over the columns, at `(r, o)`: still the mean of row `r`. -/
theorem meanb_block1 (v0 v2 : Vec Ideal S1x2048x128 .f32) (v4 : Vec Ideal S2048 .f32) (v11 : Vec Ideal S128x128 .f32)
    (v16 : Vec Ideal S128 .f32) (r : Fin 2048) (o : Fin 128) :
    k1_pay7 v0 v2 v4 v11 v16 (ix2 r o) = rowMean (fun k => k1_pay2 v0 v2 v4 v11 v16 (ix2 r k)) := by
  unfold k1_pay7
  rw [broadcastTo_a1_ab_apply, mean_block1]

/-- The gain as a one-row matrix. -/
theorem gain_block1 (v23 : Vec Ideal S128 .f32) (u : Fin 1) (o : Fin 128) : k1_pay3 v23 (ix2 u o) = v23 (ix1 o) := by
  unfold k1_pay3
  exact shapeCast_a_1a_apply _ _ u o

/-- The shift as a one-row matrix. -/
theorem shift_block1 (v25 : Vec Ideal S128 .f32) (u : Fin 1) (o : Fin 128) : k1_pay4 v25 (ix2 u o) = v25 (ix1 o) := by
  unfold k1_pay4
  exact shapeCast_a_1a_apply _ _ u o

/-- The stored block at `(u, r, o)` from the five values it is computed from: centre, divide by
    `sqrt(variance + ε)`, scale and shift. -/
theorem norm_block1 (v22 : FVec Ideal S2048x128 .f32) (v24 v26 : FVec Ideal S1x128 .f32) (v37 : FVec Ideal S2048x1 .f32)
    (v38 : FVec Ideal S2048x128 .f32) (u : Fin 1) (r : Fin 2048) (o : Fin 128) :
    k1_pay1 v22 v24 v26 v37 v38 (ix3 u r o)
      = Ideal.div (v22 (ix2 r o) - v38 (ix2 r o)) (Ideal.sqrt (v37 (ix2 r (0 : Fin 1)) + litEps)) * v24 (ix2 (0 : Fin 1) o)
          + v26 (ix2 (0 : Fin 1) o) := by
  unfold k1_pay1
  rw [shapeCast_ab_1ab_apply, addf_apply, mulf_apply, divf_apply, subf_apply, broadcastTo_a1_ab_apply,
    broadcastTo_1b_ab_apply, broadcastTo_1b_ab_apply]
  rfl

/-- The node kernel's stored block at `(u, r, o)` is the specification's node row at the block's own coordinates:
    every quantity the normalisation uses is a sum over the 128 features of ONE row of the block. -/
theorem node_block1 (x0 x1 : Vec Ideal S1x2048x128 .f32) (x2 : Vec Ideal S2048 .f32) (x3 : Vec Ideal S128x128 .f32)
    (x4 x5 x6 : Vec Ideal S128 .f32) (u : Fin 1) (r : Fin 2048) (o : Fin 128) :
    k1_pay1 (k1_pay2 x0 x1 x2 x3 x4) (k1_pay3 x5) (k1_pay4 x6) (k1_pay6 x0 x1 x2 x3 x4) (k1_pay7 x0 x1 x2 x3 x4)
        (ix3 u r o)
      = nodeRow (fun k => x0 (ix3 (0 : Fin 1) r k)) (fun k => x1 (ix3 (0 : Fin 1) r k)) (x2 (ix1 r))
          (fun o k => x3 (ix2 o k)) (fun o => x4 (ix1 o)) (fun o => x5 (ix1 o)) (fun o => x6 (ix1 o)) o := by
  have hy : (fun k => k1_pay2 x0 x1 x2 x3 x4 (ix2 r k))
      = preNorm (fun k => x0 (ix3 (0 : Fin 1) r k)) (fun k => x1 (ix3 (0 : Fin 1) r k)) (x2 (ix1 r))
          (fun o k => x3 (ix2 o k)) (fun o => x4 (ix1 o)) :=
    funext fun k => pre_block1 x0 x1 x2 x3 x4 r k
  rw [norm_block1, var_block1, meanb_block1, gain_block1, shift_block1, hy, pre_block1]
  rfl

/-! ## The node kernel of pass two -/

/-- The row before normalisation at `(r, o)`: the loaded row plus the clipped sum of its projection, its
    aggregate over `max(count, 1)` and the bias — the casts between float formats are the identity. -/
theorem pre_block3 (v0 v2 : Vec Ideal S1x2048x128 .f32) (v4 : Vec Ideal S2048 .f32) (v11 : Vec Ideal S128x128 .f32)
    (v16 : Vec Ideal S128 .f32) (r : Fin 2048) (o : Fin 128) :
    k3_pay2 v0 v2 v4 v11 v16 (ix2 r o)
      = preNorm (fun k => v0 (ix3 (0 : Fin 1) r k)) (fun k => v2 (ix3 (0 : Fin 1) r k)) (v4 (ix1 r))
          (fun o k => v11 (ix2 o k)) (fun o => v16 (ix1 o)) o := by
  unfold k3_pay2
  rw [addf_apply, maximumf_apply, addf_apply, addf_apply, matmul2048_apply, divf_apply, broadcastTo_a1_ab_apply,
    shapeCast_a_a1_apply, maximumf_apply, shapeCast_self, broadcastTo_1b_ab_apply, shapeCast_a_1a_apply,
    shapeCast_1ab_ab_apply, shapeCast_1ab_ab_apply]
  unfold preNorm
  simp only [truncf_apply, shapeCast_1ab_ab_apply, broadcast_apply]
  rfl

/-- The mean column at `(r, u)`: the sum of row `r` before normalisation, over 128. -/
theorem mean_block3 (v0 v2 : Vec Ideal S1x2048x128 .f32) (v4 : Vec Ideal S2048 .f32) (v11 : Vec Ideal S128x128 .f32)
    (v16 : Vec Ideal S128 .f32) (r : Fin 2048) (u : Fin 1) :
    k3_pay5 v0 v2 v4 v11 v16 (ix2 r u) = rowMean (fun k => k3_pay2 v0 v2 v4 v11 v16 (ix2 r k)) := by
  unfold k3_pay5
  rw [divf_apply, shapeCast_a_a1_apply, rowsum2048]
  rfl

/-- The variance column at `(r, u)`: the sum of the squared deviations of row `r` from its mean, over 128. -/
theorem var_block3 (v0 v2 : Vec Ideal S1x2048x128 .f32) (v4 : Vec Ideal S2048 .f32) (v11 : Vec Ideal S128x128 .f32)
    (v16 : Vec Ideal S128 .f32) (r : Fin 2048) (u : Fin 1) :
    k3_pay6 v0 v2 v4 v11 v16 (ix2 r u) = rowVar (fun k => k3_pay2 v0 v2 v4 v11 v16 (ix2 r k)) := by
  unfold k3_pay6
  rw [divf_apply, shapeCast_a_a1_apply, rowsum2048]
  unfold rowVar
  simp only [mulf_apply, subf_apply, broadcastTo_a1_ab_apply, mean_block3]
  rfl

/-- The mean spread over the columns, at `(r, o)`: still the mean of row `r`. -/
theorem meanb_block3 (v0 v2 : Vec Ideal S1x2048x128 .f32) (v4 : Vec Ideal S2048 .f32) (v11 : Vec Ideal S128x128 .f32)
    (v16 : Vec Ideal S128 .f32) (r : Fin 2048) (o : Fin 128) :
    k3_pay7 v0 v2 v4 v11 v16 (ix2 r o) = rowMean (fun k => k3_pay2 v0 v2 v4 v11 v16 (ix2 r k)) := by
  unfold k3_pay7
  rw [broadcastTo_a1_ab_apply, mean_block3]

/-- The gain as a one-row matrix. -/
theorem gain_block3 (v23 : Vec Ideal S128 .f32) (u : Fin 1) (o : Fin 128) : k3_pay3 v23 (ix2 u o) = v23 (ix1 o) := by
  unfold k3_pay3
  exact shapeCast_a_1a_apply _ _ u o

/-- The shift as a one-row matrix. -/
theorem shift_block3 (v25 : Vec Ideal S128 .f32) (u : Fin 1) (o : Fin 128) : k3_pay4 v25 (ix2 u o) = v25 (ix1 o) := by
  unfold k3_pay4
  exact shapeCast_a_1a_apply _ _ u o

/-- The stored block at `(u, r, o)` from the five values it is computed from: centre, divide by
    `sqrt(variance + ε)`, scale and shift. -/
theorem norm_block3 (v22 : FVec Ideal S2048x128 .f32) (v24 v26 : FVec Ideal S1x128 .f32) (v37 : FVec Ideal S2048x1 .f32)
    (v38 : FVec Ideal S2048x128 .f32) (u : Fin 1) (r : Fin 2048) (o : Fin 128) :
    k3_pay1 v22 v24 v26 v37 v38 (ix3 u r o)
      = Ideal.div (v22 (ix2 r o) - v38 (ix2 r o)) (Ideal.sqrt (v37 (ix2 r (0 : Fin 1)) + litEps)) * v24 (ix2 (0 : Fin 1) o)
          + v26 (ix2 (0 : Fin 1) o) := by
  unfold k3_pay1
  rw [shapeCast_ab_1ab_apply, addf_apply, mulf_apply, divf_apply, subf_apply, broadcastTo_a1_ab_apply,
    broadcastTo_1b_ab_apply, broadcastTo_1b_ab_apply]
  rfl

/-- The node kernel's stored block at `(u, r, o)` is the specification's node row at the block's own coordinates:
    every quantity the normalisation uses is a sum over the 128 features of ONE row of the block. -/
theorem node_block3 (x0 x1 : Vec Ideal S1x2048x128 .f32) (x2 : Vec Ideal S2048 .f32) (x3 : Vec Ideal S128x128 .f32)
    (x4 x5 x6 : Vec Ideal S128 .f32) (u : Fin 1) (r : Fin 2048) (o : Fin 128) :
    k3_pay1 (k3_pay2 x0 x1 x2 x3 x4) (k3_pay3 x5) (k3_pay4 x6) (k3_pay6 x0 x1 x2 x3 x4) (k3_pay7 x0 x1 x2 x3 x4)
        (ix3 u r o)
      = nodeRow (fun k => x0 (ix3 (0 : Fin 1) r k)) (fun k => x1 (ix3 (0 : Fin 1) r k)) (x2 (ix1 r))
          (fun o k => x3 (ix2 o k)) (fun o => x4 (ix1 o)) (fun o => x5 (ix1 o)) (fun o => x6 (ix1 o)) o := by
  have hy : (fun k => k3_pay2 x0 x1 x2 x3 x4 (ix2 r k))
      = preNorm (fun k => x0 (ix3 (0 : Fin 1) r k)) (fun k => x1 (ix3 (0 : Fin 1) r k)) (x2 (ix1 r))
          (fun o k => x3 (ix2 o k)) (fun o => x4 (ix1 o)) :=
    funext fun k => pre_block3 x0 x1 x2 x3 x4 r k
  rw [norm_block3, var_block3, meanb_block3, gain_block3, shift_block3, hy, pre_block3]
  rfl

end Cert.KernelIdeal.Blocks

end
-- ==== Proof.RegionNode1.lean ====
/-
  The node region of pass one, from blocks to the array.

  The region runs the node kernel at 16 × 8 grid points; point `(b, j)` reads rows `2048 j … 2048 j + 2047` of
  batch `b` of the node array and of the aggregate, the counts of the same nodes, and the whole weight, bias,
  gain and shift, and writes the same rows of the output.  The output blocks tile the 16 × 16384 × 128 array,
  and each block is the updated node array of the specification restricted to its rows: so after the region the
  array IS that function of the seven arrays the region found on entry.  Stated at any entry contents `V`.
-/
import proofs.«147783_j86260123173231_1_alg».proof.Proof.Gen.KernelIdeal.Frame
import proofs.«147783_j86260123173231_1_alg».proof.Proof.Layer
import proofs.«147783_j86260123173231_1_alg».proof.Proof.NodeBlock
import Idealize.ShloMosaic.Lib.Pipeline.Value

set_option maxRecDepth 16384

noncomputable section

namespace Cert.KernelIdeal.Regions

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3_1 : (![0, 0, 0] : Fin 3 → Nat) = fun _ => 0 := funext fun a => by fin_cases a <;> rfl
theorem zeros2_1 : (![0, 0] : Fin 2 → Nat) = fun _ => 0 := funext fun a => by fin_cases a <;> rfl
theorem zeros1_1 : (![0] : Fin 1 → Nat) = fun _ => 0 := funext fun a => by fin_cases a <;> rfl

/-- The printed index maps, decided over the grid: the two row blocks move with the output's block, the counts'
    block is the output's block along the nodes, and the weight and the three vectors are always whole. -/
theorem idx_facts1 : ∀ t : Fin cfg1.N,
    win1_0.index t (0 : Fin 3) = win1_7.index t (0 : Fin 3)
    ∧ win1_0.index t (1 : Fin 3) = win1_7.index t (1 : Fin 3)
    ∧ win1_0.index t (2 : Fin 3) = 0
    ∧ win1_1.index t (0 : Fin 3) = win1_7.index t (0 : Fin 3)
    ∧ win1_1.index t (1 : Fin 3) = win1_7.index t (1 : Fin 3)
    ∧ win1_1.index t (2 : Fin 3) = 0
    ∧ win1_2.index t (0 : Fin 1) = win1_7.index t (1 : Fin 3)
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (2 : Fin 3) = 0
    ∧ win1_7.index t (0 : Fin 3) ≤ 15 ∧ win1_7.index t (1 : Fin 3) ≤ 7 :=
  (by decide +kernel : ∀ t : Fin grid1.N, _)

/-- Every (batch, node-block) pair is some grid point's output block. -/
theorem idx_onto1 : ∀ (q0 : Fin 16) (q1 : Fin 8), ∃ t : Fin cfg1.N, win1_7.index t = ![q0.val, q1.val, 0] :=
  (by decide +kernel : ∀ (q0 : Fin 16) (q1 : Fin 8), ∃ t : Fin grid1.N, win1_7.index t = ![q0.val, q1.val, 0])

set_option maxHeartbeats 16000000 in
/-- What grid point `t` writes back is block `t` of the updated node array of the region's seven input arrays. -/
theorem flushed1 (c : Dev nD) (t : Fin cfg1.N) :
    (dat1 V c).flushed 7 t
      = ((cfg1.win 7).blk t).view.read (Elt Ideal) (nodeArrE (V c main_arg1) (V c main_v32) (V c main_v41) (V c main_arg4) (V c main_arg5) (V c main_arg6) (V c main_arg7)) := by
  show (cfg1.win 7).cut (grid1.coords t) ((dat1 V c).after 7 t) = _
  rw [after1_7]
  unfold out1_7
  rw [View.canon_unit_zero zeros3_1]
  simp only [View.ld_unit_zero (S := S1x2048x128) zeros3_1, View.ld_unit_zero (S := S128x128) zeros2_1,
    View.ld_unit_zero (S := S2048) zeros1_1, View.ld_unit_zero (S := S128) zeros1_1]
  obtain ⟨e0, e1, e2, e3, e4, e5, e6, e7, e8, e9, e10, e11, e12, e13, e14⟩ := idx_facts1 t
  funext j
  obtain ⟨u, r, o, rfl⟩ : ∃ (u : Fin 1) (r : Fin 2048) (o : Fin 128), j = ix3 u r o := ⟨j 0, j 1, j 2, eq_ix3 j⟩
  refine (node_block1 (iblk1 V c 0 t) (iblk1 V c 1 t) (iblk1 V c 2 t) (iblk1 V c 3 t) (iblk1 V c 4 t)
    (iblk1 V c 5 t) (iblk1 V c 6 t) u r o).trans ?_
  show _ = nodeArrE (V c main_arg1) (V c main_v32) (V c main_v41) (V c main_arg4) (V c main_arg5) (V c main_arg6) (V c main_arg7)
    (((cfg1.win 7).blk t).view.emb (ix3 u r o))
  unfold nodeArrE
  generalize hE : ((cfg1.win 7).blk t).view.emb (ix3 u r o) = E
  have E0 : (E 0).val = win1_7.index t (0 : Fin 3) * 1 + 1 * u.val := by rw [← hE]; rfl
  have E1 : (E 1).val = win1_7.index t (1 : Fin 3) * 2048 + 1 * r.val := by rw [← hE]; rfl
  have E2 : (E 2).val = win1_7.index t (2 : Fin 3) * 128 + 1 * o.val := by rw [← hE]; rfl
  have hu : u.val = 0 := by omega
  have hE2 : (E 2) = o := Fin.ext (by omega)
  congr 1
  · funext k
    show V c main_arg1 (((cfg1.win 0).blk t).view.emb (ix3 (0 : Fin 1) r k)) = V c main_arg1 (ix3 (E 0) (E 1) k)
    refine congrArg (V c main_arg1) (funext fun a => Fin.ext ?_)
    match a with
    | ⟨0, _⟩ => show win1_0.index t (0 : Fin 3) * 1 + 1 * 0 = (E 0).val; omega
    | ⟨1, _⟩ => show win1_0.index t (1 : Fin 3) * 2048 + 1 * r.val = (E 1).val; omega
    | ⟨2, _⟩ => show win1_0.index t (2 : Fin 3) * 128 + 1 * k.val = k.val; omega
  · funext k
    show V c main_v32 (((cfg1.win 1).blk t).view.emb (ix3 (0 : Fin 1) r k)) = V c main_v32 (ix3 (E 0) (E 1) k)
    refine congrArg (V c main_v32) (funext fun a => Fin.ext ?_)
    match a with
    | ⟨0, _⟩ => show win1_1.index t (0 : Fin 3) * 1 + 1 * 0 = (E 0).val; omega
    | ⟨1, _⟩ => show win1_1.index t (1 : Fin 3) * 2048 + 1 * r.val = (E 1).val; omega
    | ⟨2, _⟩ => show win1_1.index t (2 : Fin 3) * 128 + 1 * k.val = k.val; omega
  · show V c main_v41 (((cfg1.win 2).blk t).view.emb (ix1 r)) = V c main_v41 (ix1 (E 1))
    refine congrArg (V c main_v41) (funext fun a => Fin.ext ?_)
    match a with
    | ⟨0, _⟩ => show win1_2.index t (0 : Fin 1) * 2048 + 1 * r.val = (E 1).val; omega
  · funext p k
    show V c main_arg4 (((cfg1.win 3).blk t).view.emb (ix2 p k)) = V c main_arg4 (ix2 p k)
    refine congrArg (V c main_arg4) (funext fun a => Fin.ext ?_)
    match a with
    | ⟨0, _⟩ => show win1_3.index t (0 : Fin 2) * 128 + 1 * p.val = p.val; omega
    | ⟨1, _⟩ => show win1_3.index t (1 : Fin 2) * 128 + 1 * k.val = k.val; omega
  · funext p
    show V c main_arg5 (((cfg1.win 4).blk t).view.emb (ix1 p)) = V c main_arg5 (ix1 p)
    refine congrArg (V c main_arg5) (funext fun a => Fin.ext ?_)
    match a with
    | ⟨0, _⟩ => show win1_4.index t (0 : Fin 1) * 128 + 1 * p.val = p.val; omega
  · funext p
    show V c main_arg6 (((cfg1.win 5).blk t).view.emb (ix1 p)) = V c main_arg6 (ix1 p)
    refine congrArg (V c main_arg6) (funext fun a => Fin.ext ?_)
    match a with
    | ⟨0, _⟩ => show win1_5.index t (0 : Fin 1) * 128 + 1 * p.val = p.val; omega
  · funext p
    show V c main_arg7 (((cfg1.win 6).blk t).view.emb (ix1 p)) = V c main_arg7 (ix1 p)
    refine congrArg (V c main_arg7) (funext fun a => Fin.ext ?_)
    match a with
    | ⟨0, _⟩ => show win1_6.index t (0 : Fin 1) * 128 + 1 * p.val = p.val; omega
  · exact hE2.symm

/-- An index of the node array is in grid point `t`'s output block iff each coordinate is in the block's range. -/
theorem mem_blk1 (t : Fin cfg1.N) (i : S16x16384x128.Idx) :
    i ∈ ((cfg1.win 7).blk t).view.set ↔ ∀ a : Fin 3, win1_7.index t a * S1x2048x128.size a ≤ (i a).val
      ∧ (i a).val < win1_7.index t a * S1x2048x128.size a + S1x2048x128.size a := by
  show i ∈ ((View.whole main_v42).slice (win1_7.rect t)).set ↔ _
  rw [View.set_slice_whole, Rect.mem_set_unit]
  exact Iff.rfl

/-- Every index of the node array is in some grid point's output block: the blocks tile the array. -/
theorem cover1 (i : S16x16384x128.Idx) :
    ∃ t : Fin cfg1.N, (cfg1.win 7).flush t = true ∧ i ∈ ((cfg1.win 7).blk t).view.set := by
  have hi0 : (i 0).val < 16 := (i 0).isLt
  have hi1 : (i 1).val < 16384 := (i 1).isLt
  have hi2 : (i 2).val < 128 := (i 2).isLt
  obtain ⟨t, ht⟩ := idx_onto1 ⟨(i 0).val, hi0⟩ ⟨(i 1).val / 2048, by omega⟩
  have q0 : win1_7.index t (0 : Fin 3) = (i 0).val := congrFun ht 0
  have q1 : win1_7.index t (1 : Fin 3) = (i 1).val / 2048 := congrFun ht 1
  have q2 : win1_7.index t (2 : Fin 3) = 0 := congrFun ht 2
  refine ⟨t, flush1_7 t, ?_⟩
  rw [mem_blk1]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 2048 ≤ (i 1).val ∧ (i 1).val < win1_7.index t (1 : Fin 3) * 2048 + 2048; omega
  | ⟨2, _⟩ => show win1_7.index t (2 : Fin 3) * 128 ≤ (i 2).val ∧ (i 2).val < win1_7.index t (2 : Fin 3) * 128 + 128; omega

/-- THE NODE ARRAY after the region: the updated node array of the region's seven input arrays as it finds them. -/
theorem final1 (c : Dev nD) :
    (dat1 V c).arrAt 7 cfg1.N = nodeArrE (V c main_arg1) (V c main_v32) (V c main_v41) (V c main_arg4) (V c main_arg5) (V c main_arg6) (V c main_arg7) :=
  (dat1 V c).arrAt_eq_of_cover 7 (nodeArrE (V c main_arg1) (V c main_v32) (V c main_v41) (V c main_arg4) (V c main_arg5) (V c main_arg6) (V c main_arg7)) (fun t _ => flushed1 V c t) cover1

end Cert.KernelIdeal.Regions

end
-- ==== Proof.RefMsg.lean ====
/-
  The reference's two message stages are the specification's message array.

  Entry `(b, e, o)` of a message stage is the sum over the 128 features `k` of the gathered source row's
  entry `(b, e, k)` times the weight matrix's entry `(o, k)`, times the scale of edge `e`.  In the first stage
  the scale is the reciprocal of one plus the exponential of the negated gathered weight, a vector over the
  edges that the program spreads over the batch and feature axes; in the second stage there is no scale, and
  the specification's scale is the constant `1.0`, which multiplies by the real number one and so drops.
  The gathered arrays stay opaque: they enter only as the stages that produce them.
-/
import proofs.«147783_j86260123173231_1_alg».proof.Proof.Gen.ReferenceIdeal.Read
import proofs.«147783_j86260123173231_1_alg».proof.Proof.Layer
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The pattern of `1.0` denotes the real number one. -/
theorem ofBits_one : Ideal.ofBits .f32 0x3F800000#32 = 1 := by
  simp [Ideal.ofBits, Ideal.ieee, -EReal.coe_mul]; norm_num

/-! ## The first stage: source rows of the 8192 nodes against `W`, scaled per edge -/

/-- Summand `k` of entry `(b, e, o)` reads the gathered array at `(b, e, k)` … -/
theorem lidx_v11 (b : Fin 16) (e : Fin 65536) (o k : Fin 128) : lidx_main_v11 (ix3 b e o) k = ix3 b e k :=
  funext fun a => Fin.ext (by match a with | ⟨0, _⟩ => rfl | ⟨1, _⟩ => rfl | ⟨2, _⟩ => rfl)

/-- … and the weight matrix at `(o, k)`. -/
theorem ridx_v11 (b : Fin 16) (e : Fin 65536) (o k : Fin 128) : ridx_main_v11 (ix3 b e o) k = ix2 o k :=
  funext fun a => Fin.ext (by match a with | ⟨0, _⟩ => rfl | ⟨1, _⟩ => rfl)

/-- The scale spread over batches and features is read at the edge `e` alone. -/
theorem idx_v25_v26 (b : Fin 16) (e : Fin 65536) (o : Fin 128) :
    idx_main_v25 (idx_main_v26 (ix3 b e o)) = ix1 e :=
  funext fun a => Fin.ext (by match a with | ⟨0, _⟩ => rfl)

/-- The first message stage is the message array of the gathered rows, the weights and the per-edge scale. -/
theorem msg1_eq (x0 : (⟨S16x8192x128, .f32⟩ : BufTy).Contents (Elt Ideal))
    (x2 : (⟨S16384, .f32⟩ : BufTy).Contents (Elt Ideal)) (x3 : (⟨S128x128, .f32⟩ : BufTy).Contents (Elt Ideal))
    (x13 : (⟨S2x65536, .i32⟩ : BufTy).Contents (Elt Ideal)) :
    val_main_v27 (F := Ideal) x0 x2 x3 x13
      = Cert.Layer.msgArr (val_main_v10 (F := Ideal) x0 x13) x3 (val_main_v24 (F := Ideal) x2 x13) := by
  funext i
  obtain ⟨b, e, o, rfl⟩ : ∃ (b : Fin 16) (e : Fin 65536) (o : Fin 128), i = ix3 b e o :=
    ⟨i 0, i 1, i 2, eq_ix3 i⟩
  simp only [val_main_v27_apply, val_main_v11_apply, val_main_v26_apply, val_main_v25_apply, lidx_v11, ridx_v11,
    idx_v25_v26, Ideal.mulf_def]
  rfl

/-! ## The second stage: rows of the updated 16384 nodes against `W`, unscaled -/

/-- Summand `k` of entry `(b, e, o)` reads the gathered array at `(b, e, k)` … -/
theorem lidx_v92 (b : Fin 16) (e : Fin 65536) (o k : Fin 128) : lidx_main_v92 (ix3 b e o) k = ix3 b e k :=
  funext fun a => Fin.ext (by match a with | ⟨0, _⟩ => rfl | ⟨1, _⟩ => rfl | ⟨2, _⟩ => rfl)

/-- … and the weight matrix at `(o, k)`. -/
theorem ridx_v92 (b : Fin 16) (e : Fin 65536) (o k : Fin 128) : ridx_main_v92 (ix3 b e o) k = ix2 o k :=
  funext fun a => Fin.ext (by match a with | ⟨0, _⟩ => rfl | ⟨1, _⟩ => rfl)

/-- The second message stage is the message array of the gathered rows and the weights with the scale `1.0`
    on every edge: the scale denotes one, and a product by one is the other factor. -/
theorem msg2_eq (x0 : (⟨S16x8192x128, .f32⟩ : BufTy).Contents (Elt Ideal))
    (x1 : (⟨S16x16384x128, .f32⟩ : BufTy).Contents (Elt Ideal)) (x2 : (⟨S16384, .f32⟩ : BufTy).Contents (Elt Ideal))
    (x3 x4 : (⟨S128x128, .f32⟩ : BufTy).Contents (Elt Ideal)) (x5 x6 x7 : (⟨S128, .f32⟩ : BufTy).Contents (Elt Ideal))
    (x8 : (⟨S128x128, .f32⟩ : BufTy).Contents (Elt Ideal)) (x13 x14 : (⟨S2x65536, .i32⟩ : BufTy).Contents (Elt Ideal)) :
    val_main_v92 (F := Ideal) x0 x1 x2 x3 x4 x5 x6 x7 x8 x13 x14
      = Cert.Layer.msgArr (val_main_v91 (F := Ideal) x0 x1 x2 x3 x4 x5 x6 x7 x13 x14) x8
          (fun _ => Cert.Layer.lit1) := by
  funext i
  obtain ⟨b, e, o, rfl⟩ : ∃ (b : Fin 16) (e : Fin 65536) (o : Fin 128), i = ix3 b e o :=
    ⟨i 0, i 1, i 2, eq_ix3 i⟩
  simp only [val_main_v92_apply, lidx_v92, ridx_v92]
  generalize val_main_v91 (F := Ideal) x0 x1 x2 x3 x4 x5 x6 x7 x13 x14 = g
  show _ = (∑ k : Fin 128, g (ix3 b e k) * x8 (ix2 o k)) * Ideal.ofBits .f32 0x3F800000#32
  rw [ofBits_one, mul_one]

end Cert.ReferenceIdeal.RefValue

end
-- ==== Proof.RefNodeE.lean ====
/-
  The reference's update of the 16384 nodes of the first kind is the specification's node array.

  At the coordinates `(b, n, o)` the reference computes, one operation at a time: the row's own projection
  `∑ₖ h(b,n,k) · W(o,k)`; the scattered aggregate at `(b, n, o)` divided by `max(count(n), 1.0)`, the count
  spread over batches and features; the bias at `o`; the maximum of their sum with `0.0`; and the row's entry
  added to it.  That is the specification's row before normalisation.  The two reductions over the feature axis
  start from `0.0`, which denotes zero, so each is the plain sum over the 128 features `k` of the entries
  `(b, n, k)`: the first, over `128.0`, is the row's mean; the second, of the squared differences from the mean,
  over `128.0`, is its variance.  Both are kept with a trailing axis of length one and spread back over the
  features, so at `(b, n, o)` they are read at `(b, n, 0)`.  The result is the difference from the mean over
  the square root of the variance plus the offset, times the gain at `o`, plus the shift at `o`.
  The scattered aggregate and the scattered count stay opaque: they enter only as the stages that produce them.
-/
import proofs.«147783_j86260123173231_1_alg».proof.Proof.Gen.ReferenceIdeal.Read
import proofs.«147783_j86260123173231_1_alg».proof.Proof.Layer
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## Where each operation reads its operands, at literal coordinates -/

/-- Summand `k` of the projection at `(b, n, o)` reads the node array at `(b, n, k)` … -/
theorem lidx_v50 (b : Fin 16) (n : Fin 16384) (o k : Fin 128) : lidx_main_v50 (ix3 b n o) k = ix3 b n k :=
  funext fun a => Fin.ext (by match a with | ⟨0, _⟩ => rfl | ⟨1, _⟩ => rfl | ⟨2, _⟩ => rfl)

/-- … and the weight matrix at `(o, k)`. -/
theorem ridx_v50 (b : Fin 16) (n : Fin 16384) (o k : Fin 128) : ridx_main_v50 (ix3 b n o) k = ix2 o k :=
  funext fun a => Fin.ext (by match a with | ⟨0, _⟩ => rfl | ⟨1, _⟩ => rfl)

/-- The clipped count spread over batches and features is read at the node `n` alone. -/
theorem idx_v47_v48 (b : Fin 16) (n : Fin 16384) (o : Fin 128) :
    idx_main_v47 (idx_main_v48 (ix3 b n o)) = ix1 n :=
  funext fun a => Fin.ext (by match a with | ⟨0, _⟩ => rfl)

/-- The bias spread over batches and nodes is read at the feature `o` alone … -/
theorem idx_v52_v53 (b : Fin 16) (n : Fin 16384) (o : Fin 128) :
    idx_main_v52 (idx_main_v53 (ix3 b n o)) = ix1 o :=
  funext fun a => Fin.ext (by match a with | ⟨0, _⟩ => rfl)

/-- … and so are the gain … -/
theorem idx_v75_v76 (b : Fin 16) (n : Fin 16384) (o : Fin 128) :
    idx_main_v75 (idx_main_v76 (ix3 b n o)) = ix1 o :=
  funext fun a => Fin.ext (by match a with | ⟨0, _⟩ => rfl)

/-- … and the shift. -/
theorem idx_v78_v79 (b : Fin 16) (n : Fin 16384) (o : Fin 128) :
    idx_main_v78 (idx_main_v79 (ix3 b n o)) = ix1 o :=
  funext fun a => Fin.ext (by match a with | ⟨0, _⟩ => rfl)

/-- A row sum kept with a trailing axis of length one is read at the row `(b, n)` … -/
theorem idx_v58 (b : Fin 16) (n : Fin 16384) (z : Fin 1) : idx_main_v58 (ix3 b n z) = ix2 b n :=
  funext fun a => Fin.ext (by match a with | ⟨0, _⟩ => rfl | ⟨1, _⟩ => rfl)

/-- … and its summand `k` is the entry `(b, n, k)`. -/
theorem idx_v57 (b : Fin 16) (n : Fin 16384) (k : Fin 128) : idx_main_v57 (ix2 b n) k = ix3 b n k :=
  funext fun a => Fin.ext (by match a with | ⟨0, _⟩ => rfl | ⟨1, _⟩ => rfl | ⟨2, _⟩ => rfl)

/-- The same two facts for the sum of squares. -/
theorem idx_v65 (b : Fin 16) (n : Fin 16384) (z : Fin 1) : idx_main_v65 (ix3 b n z) = ix2 b n :=
  funext fun a => Fin.ext (by match a with | ⟨0, _⟩ => rfl | ⟨1, _⟩ => rfl)

theorem idx_v64 (b : Fin 16) (n : Fin 16384) (k : Fin 128) : idx_main_v64 (ix2 b n) k = ix3 b n k :=
  funext fun a => Fin.ext (by match a with | ⟨0, _⟩ => rfl | ⟨1, _⟩ => rfl | ⟨2, _⟩ => rfl)

/-- A row statistic spread back over the features is read at `(b, n, 0)`: the mean inside the variance … -/
theorem idx_v61 (b : Fin 16) (n : Fin 16384) (o : Fin 128) : idx_main_v61 (ix3 b n o) = ix3 b n (0 : Fin 1) :=
  funext fun a => Fin.ext (by match a with | ⟨0, _⟩ => rfl | ⟨1, _⟩ => rfl | ⟨2, _⟩ => rfl)

/-- … the mean inside the result … -/
theorem idx_v68 (b : Fin 16) (n : Fin 16384) (o : Fin 128) : idx_main_v68 (ix3 b n o) = ix3 b n (0 : Fin 1) :=
  funext fun a => Fin.ext (by match a with | ⟨0, _⟩ => rfl | ⟨1, _⟩ => rfl | ⟨2, _⟩ => rfl)

/-- … and the square root. -/
theorem idx_v73 (b : Fin 16) (n : Fin 16384) (o : Fin 128) : idx_main_v73 (ix3 b n o) = ix3 b n (0 : Fin 1) :=
  funext fun a => Fin.ext (by match a with | ⟨0, _⟩ => rfl | ⟨1, _⟩ => rfl | ⟨2, _⟩ => rfl)

/-! ## The row before normalisation -/

/-- The row `(b, n)` after the residual addition is the specification's row before normalisation: the row, plus
    the maximum with `0.0` of its projection plus its aggregate over `max(count, 1.0)` plus the bias. -/
theorem preE_row (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 : (⟨S128, .f32⟩ : BufTy).Contents (Elt Ideal)) (x13 : (⟨S2x65536, .i32⟩ : BufTy).Contents (Elt Ideal)) (b : Fin 16) (n : Fin 16384) :
    (fun k : Fin 128 => val_main_v56 (F := Ideal) x0 x1 x2 x3 x4 x5 x13 (ix3 b n k))
      = Cert.Layer.preNorm (fun k => x1 (ix3 b n k))
          (fun k => val_main_v35 (F := Ideal) x0 x2 x3 x13 (ix3 b n k))
          (val_main_v44 (F := Ideal) x13 (ix1 n)) (fun o k => x4 (ix2 o k)) (fun o => x5 (ix1 o)) := by
  funext o
  simp only [val_main_v56_apply, val_main_v55_apply, val_main_v54_apply, val_main_v51_apply, val_main_v50_apply,
    val_main_v49_apply, val_main_v48_apply, val_main_v47_apply, val_main_v46_apply, val_main_v45_apply,
    val_main_cst_11_apply, val_main_v53_apply, val_main_v52_apply, val_main_call0_v0_apply, val_main_call0_cst_apply,
    lidx_v50, ridx_v50, idx_v47_v48, idx_v52_v53,
    Ideal.addf_def, Ideal.maximumf_def, Ideal.hostDivf_def, Ideal.ofBits_def]
  rfl

/-! ## Mean, variance, and the normalised row -/

/-- The first reduction over `128.0` is the mean of the row: its initial `0.0` denotes zero and drops. -/
theorem meanE_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 : (⟨S128, .f32⟩ : BufTy).Contents (Elt Ideal)) (x13 : (⟨S2x65536, .i32⟩ : BufTy).Contents (Elt Ideal)) (b : Fin 16) (n : Fin 16384) (z : Fin 1) :
    val_main_v60 (F := Ideal) x0 x1 x2 x3 x4 x5 x13 (ix3 b n z)
      = Cert.Layer.rowMean (fun k : Fin 128 => val_main_v56 (F := Ideal) x0 x1 x2 x3 x4 x5 x13 (ix3 b n k)) := by
  simp only [val_main_v60_apply, val_main_v58_apply, val_main_v57_apply, val_main_v59_apply, val_main_cst_13_apply,
    val_main_cst_12_apply, idx_v58, idx_v57, Ideal.hostDivf_def, Ideal.ofBits_def, Ideal.ofBits_zero_f32, zero_add]
  rfl

/-- The second reduction, of the squared differences from the mean, over `128.0` is the variance of the row. -/
theorem varE_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 : (⟨S128, .f32⟩ : BufTy).Contents (Elt Ideal)) (x13 : (⟨S2x65536, .i32⟩ : BufTy).Contents (Elt Ideal)) (b : Fin 16) (n : Fin 16384) (z : Fin 1) :
    val_main_v67 (F := Ideal) x0 x1 x2 x3 x4 x5 x13 (ix3 b n z)
      = Cert.Layer.rowVar (fun k : Fin 128 => val_main_v56 (F := Ideal) x0 x1 x2 x3 x4 x5 x13 (ix3 b n k)) := by
  simp only [val_main_v67_apply, val_main_v65_apply, val_main_v64_apply, val_main_v66_apply, val_main_cst_15_apply,
    val_main_cst_14_apply, val_main_v63_apply, val_main_v62_apply, val_main_v61_apply, idx_v65, idx_v64,
    idx_v61, meanE_eq, Ideal.hostDivf_def, Ideal.subf_def, Ideal.mulf_def, Ideal.ofBits_def, Ideal.ofBits_zero_f32,
    zero_add]
  rfl

/-- The result at `(b, n, o)` is the normalised row at `o`: the difference from the mean over the square root
    of the variance plus the offset, times the gain, plus the shift. -/
theorem outE_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x13 : (⟨S2x65536, .i32⟩ : BufTy).Contents (Elt Ideal)) (b : Fin 16) (n : Fin 16384) (o : Fin 128) :
    val_main_v80 (F := Ideal) x0 x1 x2 x3 x4 x5 x6 x7 x13 (ix3 b n o)
      = Cert.Layer.normRow (fun k : Fin 128 => val_main_v56 (F := Ideal) x0 x1 x2 x3 x4 x5 x13 (ix3 b n k))
          (fun o => x6 (ix1 o)) (fun o => x7 (ix1 o)) o := by
  simp only [val_main_v80_apply, val_main_v77_apply, val_main_v74_apply, val_main_v69_apply, val_main_v68_apply,
    val_main_v73_apply, val_main_v72_apply, val_main_v71_apply, val_main_v70_apply, val_main_cst_16_apply,
    val_main_v76_apply, val_main_v75_apply, val_main_v79_apply, val_main_v78_apply, idx_v68, idx_v73,
    idx_v75_v76, idx_v78_v79, meanE_eq, varE_eq, Ideal.addf_def, Ideal.subf_def, Ideal.mulf_def,
    Ideal.hostDivf_def, Ideal.hostUnary_sqrt_def, Ideal.ofBits_def]
  rfl

/-- The reference's updated node array is the specification's, over the same node rows, scattered aggregate,
    scattered count, weights, bias, gain and shift. -/
theorem nodeE_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x13 : (⟨S2x65536, .i32⟩ : BufTy).Contents (Elt Ideal)) :
    val_main_v80 (F := Ideal) x0 x1 x2 x3 x4 x5 x6 x7 x13
      = Cert.Layer.nodeArrE x1 (val_main_v35 (F := Ideal) x0 x2 x3 x13) (val_main_v44 (F := Ideal) x13)
          x4 x5 x6 x7 := by
  funext i
  obtain ⟨b, n, o, rfl⟩ : ∃ (b : Fin 16) (n : Fin 16384) (o : Fin 128), i = ix3 b n o := ⟨i 0, i 1, i 2, eq_ix3 i⟩
  rw [outE_eq, preE_row]
  rfl

end Cert.ReferenceIdeal.RefValue

end
-- ==== Proof.ValuePassOne.lean ====
/-
  The first pass read through the program: from the launch to the updated rows of the nodes of the first kind.

  The buffers' contents are a fold through the program's segments.  Walking it back from the second region's
  exit: that region's output is the updated node array of its seven input arrays; of those, the aggregate and
  the counts were written by the host stretch before it (a scatter-add of the first region's message array, and
  of ones, at the destination indices), the rest are arguments no one has written; the first region's message
  array is the message array of the gathered source rows, the weight and the logistic scales, which the first
  host stretch computed from the arguments.  Each step is stated against the reference's stage of the same
  name, so the gathers, the scatters and the index arithmetic are never opened: both programs apply the same
  host operations to values already shown equal.
-/
import proofs.«147783_j86260123173231_1_alg».proof.Proof.KernelRun
import proofs.«147783_j86260123173231_1_alg».proof.Proof.RegionMsg0
import proofs.«147783_j86260123173231_1_alg».proof.Proof.RegionNode1
import proofs.«147783_j86260123173231_1_alg».proof.Proof.RefMsg
import proofs.«147783_j86260123173231_1_alg».proof.Proof.RefNodeE
import Idealize.ShloMosaic.Lib.StableHlo.Run

set_option maxRecDepth 16384

noncomputable section

namespace Cert.KernelIdeal.Values

open Cert.KernelIdeal Cert.KernelIdeal.Gen Cert.KernelIdeal.Regions Cert.Layer
open Idealize.ShloMosaic Idealize.ShloMosaic.TcCoe Idealize.SL.Sem
open Cert.ReferenceIdeal.Read (val_main_v3 val_main_v10 val_main_v24 val_main_v27 val_main_v35 val_main_v44 val_main_v80
  val_main_v84 val_main_v91 val_main_v92 val_main_v100 val_main_v109 val_main_v145)
open Cert.ReferenceIdeal.RefValue (msg1_eq nodeE_eq)

variable (m : (ℓ : Loc nD τ sig) → Buf (Elt Ideal) ℓ) (ρ : Dev nD → PrngReg) (c : Dev nD)

/-! ## Region 0's three input arrays -/

set_option maxHeartbeats 4000000 in
/-- The gathered source rows, as the first host stretch leaves them. -/
theorem rows1 : V1 m ρ c main_v10 = val_main_v10 (F := Ideal) (m ((c : Thread nD τ).loc main_arg0)) (m ((c : Thread nD τ).loc main_arg13)) := by
  show StableHlo.after hostOps0 (W0 m ρ c) (Proc.devRef .tc main_v10) = _
  after_results_simp
  rfl

set_option maxHeartbeats 4000000 in
/-- The logistic scales of the edges, as the first host stretch leaves them. -/
theorem scale1 : V1 m ρ c main_v23 = val_main_v24 (F := Ideal) (m ((c : Thread nD τ).loc main_arg2)) (m ((c : Thread nD τ).loc main_arg13)) := by
  show StableHlo.after hostOps0 (W0 m ρ c) (Proc.devRef .tc main_v23) = _
  after_results_simp
  rfl

/-- The first message weight is untouched by the first host stretch. -/
theorem weight1 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FIRST MESSAGE ARRAY, at the first region's exit, is the reference's scaled projection. -/
theorem msg1 : W2 m ρ c (Proc.devRef .tc main_v24)
    = val_main_v27 (F := Ideal) (m ((c : Thread nD τ).loc main_arg0)) (m ((c : Thread nD τ).loc main_arg2)) (m ((c : Thread nD τ).loc main_arg3)) (m ((c : Thread nD τ).loc main_arg13)) :=
  (W2_arr m ρ c 3).trans ((final0 (V1 m ρ) c).trans (by
    rw [rows1, scale1, show V1 m ρ c main_arg3 = _ from weight1 m ρ c]
    exact (msg1_eq _ _ _ _).symm))

/-! ## Region 1's seven input arrays -/

set_option maxHeartbeats 4000000 in
/-- The destination indices of the first pass survive the first region. -/
theorem dst1 : W2 m ρ c (Proc.devRef .tc main_v3) = val_main_v3 (F := Ideal) (m ((c : Thread nD τ).loc main_arg13)) :=
  (W2_of_ne m ρ c main_v3 (by decide)).trans (by
    show StableHlo.after hostOps0 (W0 m ρ c) (Proc.devRef .tc main_v3) = _
    after_results
    rfl)

set_option maxHeartbeats 4000000 in
/-- The aggregate: the message array scatter-added at the destination indices. -/
theorem agg1 : V3 m ρ c main_v32 = val_main_v35 (F := Ideal) (m ((c : Thread nD τ).loc main_arg0)) (m ((c : Thread nD τ).loc main_arg2)) (m ((c : Thread nD τ).loc main_arg3)) (m ((c : Thread nD τ).loc main_arg13)) := by
  show StableHlo.after hostOps1 (W2 m ρ c) (Proc.devRef .tc main_v32) = _
  after_results_simp
  rw [msg1, dst1]
  rfl

set_option maxHeartbeats 4000000 in
/-- The counts: ones scatter-added at the destination indices. -/
theorem cnt1 : V3 m ρ c main_v41 = val_main_v44 (F := Ideal) (m ((c : Thread nD τ).loc main_arg13)) := by
  show StableHlo.after hostOps1 (W2 m ρ c) (Proc.devRef .tc main_v41) = _
  after_results_simp
  rw [dst1]
  rfl

/-- The rows of the nodes of the first kind are untouched up to the second region. -/
theorem nodesE3 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Their self weight is untouched up to the second region. -/
theorem weightE3 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Their bias is untouched up to the second region. -/
theorem biasE3 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Their gain is untouched up to the second region. -/
theorem gainE3 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Their shift is untouched up to the second region. -/
theorem shiftE3 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- THE UPDATED ROWS OF THE NODES OF THE FIRST KIND, at the second region's exit, are the reference's. -/
theorem outE : W4 m ρ c (Proc.devRef .tc main_v42)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) :=
  (W4_arr m ρ c 7).trans ((final1 (V3 m ρ) c).trans (by
    rw [agg1, cnt1, show V3 m ρ c main_arg1 = _ from nodesE3 m ρ c, show V3 m ρ c main_arg4 = _ from weightE3 m ρ c,
      show V3 m ρ c main_arg5 = _ from biasE3 m ρ c, show V3 m ρ c main_arg6 = _ from gainE3 m ρ c,
      show V3 m ρ c main_arg7 = _ from shiftE3 m ρ c]
    exact (nodeE_eq _ _ _ _ _ _ _ _ _).symm))

end Cert.KernelIdeal.Values

end
-- ==== Proof.RegionMsg2.lean ====
/-
  The message region of pass two, from blocks to the array.

  The region runs the message kernel at 16 × 8 grid points; point `(b, j)` reads rows `8192 j … 8192 j + 8191` of
  batch `b` of the gathered rows of the updated nodes of the first kind, the whole weight, and the scales of the same edges, and writes the same rows of the
  output.  The output blocks tile the 16 × 65536 × 128 message array, and each block is the message array of the
  specification restricted to its rows: so after the region the array IS that function of the three arrays the
  region found on entry.  Stated at any entry contents `V`.
-/
import proofs.«147783_j86260123173231_1_alg».proof.Proof.Gen.KernelIdeal.Frame
import proofs.«147783_j86260123173231_1_alg».proof.Proof.Layer
import proofs.«147783_j86260123173231_1_alg».proof.Proof.MsgBlock
import Idealize.ShloMosaic.Lib.Pipeline.Value

set_option maxRecDepth 16384

noncomputable section

namespace Cert.KernelIdeal.Regions

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3_2 : (![0, 0, 0] : Fin 3 → Nat) = fun _ => 0 := funext fun a => by fin_cases a <;> rfl
theorem zeros2_2 : (![0, 0] : Fin 2 → Nat) = fun _ => 0 := funext fun a => by fin_cases a <;> rfl
theorem zeros1_2 : (![0] : Fin 1 → Nat) = fun _ => 0 := funext fun a => by fin_cases a <;> rfl

/-- The printed index maps, decided over the 128 grid points: the row block moves with the output's block, the
    weight's block is always the whole weight, the scales' block is the output's block along the edges. -/
theorem idx_facts2 : ∀ t : Fin cfg2.N,
    win2_0.index t (0 : Fin 3) = win2_3.index t (0 : Fin 3)
    ∧ win2_0.index t (1 : Fin 3) = win2_3.index t (1 : Fin 3)
    ∧ win2_0.index t (2 : Fin 3) = 0 ∧ win2_3.index t (2 : Fin 3) = 0
    ∧ win2_1.index t (0 : Fin 2) = 0 ∧ win2_1.index t (1 : Fin 2) = 0
    ∧ win2_2.index t (0 : Fin 1) = win2_3.index t (1 : Fin 3)
    ∧ win2_3.index t (0 : Fin 3) ≤ 15 ∧ win2_3.index t (1 : Fin 3) ≤ 7 :=
  (by decide +kernel : ∀ t : Fin grid2.N, _)

/-- Every (batch, edge-block) pair is some grid point's output block. -/
theorem idx_onto2 : ∀ (q0 : Fin 16) (q1 : Fin 8), ∃ t : Fin cfg2.N, win2_3.index t = ![q0.val, q1.val, 0] :=
  (by decide +kernel : ∀ (q0 : Fin 16) (q1 : Fin 8), ∃ t : Fin grid2.N, win2_3.index t = ![q0.val, q1.val, 0])

set_option maxHeartbeats 4000000 in
/-- What grid point `t` writes back is block `t` of the message array of the region's three input arrays. -/
theorem flushed2 (c : Dev nD) (t : Fin cfg2.N) :
    (dat2 V c).flushed 3 t
      = ((cfg2.win 3).blk t).view.read (Elt Ideal) (msgArr (V c main_v53) (V c main_arg8) (V c main_v54)) := by
  show (cfg2.win 3).cut (grid2.coords t) ((dat2 V c).after 3 t) = _
  rw [after2_3]
  unfold out2_3
  rw [View.canon_unit_zero zeros3_2]
  simp only [View.ld_unit_zero (S := S1x8192x128) zeros3_2, View.ld_unit_zero (S := S128x128) zeros2_2,
    View.ld_unit_zero (S := S8192) zeros1_2]
  obtain ⟨e0, e1, e2, e3, e4, e5, e6, e7, e8⟩ := idx_facts2 t
  funext j
  obtain ⟨u, r, o, rfl⟩ : ∃ (u : Fin 1) (r : Fin 8192) (o : Fin 128), j = ix3 u r o := ⟨j 0, j 1, j 2, eq_ix3 j⟩
  refine (msg_block2 (iblk2 V c 0 t) (iblk2 V c 1 t) (iblk2 V c 2 t) u r o).trans ?_
  show _ = msgArr (V c main_v53) (V c main_arg8) (V c main_v54) (((cfg2.win 3).blk t).view.emb (ix3 u r o))
  unfold msgArr
  generalize hE : ((cfg2.win 3).blk t).view.emb (ix3 u r o) = E
  have E0 : (E 0).val = win2_3.index t (0 : Fin 3) * 1 + 1 * u.val := by rw [← hE]; rfl
  have E1 : (E 1).val = win2_3.index t (1 : Fin 3) * 8192 + 1 * r.val := by rw [← hE]; rfl
  have E2 : (E 2).val = win2_3.index t (2 : Fin 3) * 128 + 1 * o.val := by rw [← hE]; rfl
  have hu : u.val = 0 := by omega
  congr 1
  · funext k
    show V c main_v53 (((cfg2.win 0).blk t).view.emb (ix3 (0 : Fin 1) r k)) = V c main_v53 (ix3 (E 0) (E 1) k)
    refine congrArg (V c main_v53) (funext fun a => Fin.ext ?_)
    match a with
    | ⟨0, _⟩ => show win2_0.index t (0 : Fin 3) * 1 + 1 * 0 = (E 0).val; omega
    | ⟨1, _⟩ => show win2_0.index t (1 : Fin 3) * 8192 + 1 * r.val = (E 1).val; omega
    | ⟨2, _⟩ => show win2_0.index t (2 : Fin 3) * 128 + 1 * k.val = k.val; omega
  · funext k
    show V c main_arg8 (((cfg2.win 1).blk t).view.emb (ix2 o k)) = V c main_arg8 (ix2 (E 2) k)
    refine congrArg (V c main_arg8) (funext fun a => Fin.ext ?_)
    match a with
    | ⟨0, _⟩ => show win2_1.index t (0 : Fin 2) * 128 + 1 * o.val = (E 2).val; omega
    | ⟨1, _⟩ => show win2_1.index t (1 : Fin 2) * 128 + 1 * k.val = k.val; omega
  · show V c main_v54 (((cfg2.win 2).blk t).view.emb (ix1 r)) = V c main_v54 (ix1 (E 1))
    refine congrArg (V c main_v54) (funext fun a => Fin.ext ?_)
    match a with
    | ⟨0, _⟩ => show win2_2.index t (0 : Fin 1) * 8192 + 1 * r.val = (E 1).val; omega

/-- An index of the message array is in grid point `t`'s output block iff each coordinate is in the block's range. -/
theorem mem_blk2 (t : Fin cfg2.N) (i : S16x65536x128.Idx) :
    i ∈ ((cfg2.win 3).blk t).view.set ↔ ∀ a : Fin 3, win2_3.index t a * S1x8192x128.size a ≤ (i a).val
      ∧ (i a).val < win2_3.index t a * S1x8192x128.size a + S1x8192x128.size a := by
  show i ∈ ((View.whole main_v55).slice (win2_3.rect t)).set ↔ _
  rw [View.set_slice_whole, Rect.mem_set_unit]
  exact Iff.rfl

/-- Every index of the message array is in some grid point's output block: the blocks tile the array. -/
theorem cover2 (i : S16x65536x128.Idx) :
    ∃ t : Fin cfg2.N, (cfg2.win 3).flush t = true ∧ i ∈ ((cfg2.win 3).blk t).view.set := by
  have hi0 : (i 0).val < 16 := (i 0).isLt
  have hi1 : (i 1).val < 65536 := (i 1).isLt
  have hi2 : (i 2).val < 128 := (i 2).isLt
  obtain ⟨t, ht⟩ := idx_onto2 ⟨(i 0).val, hi0⟩ ⟨(i 1).val / 8192, by omega⟩
  have q0 : win2_3.index t (0 : Fin 3) = (i 0).val := congrFun ht 0
  have q1 : win2_3.index t (1 : Fin 3) = (i 1).val / 8192 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 8192 ≤ (i 1).val ∧ (i 1).val < win2_3.index t (1 : Fin 3) * 8192 + 8192; omega
  | ⟨2, _⟩ => show win2_3.index t (2 : Fin 3) * 128 ≤ (i 2).val ∧ (i 2).val < win2_3.index t (2 : Fin 3) * 128 + 128; omega

/-- THE MESSAGE ARRAY after the region: the message array of the region's three input arrays as it finds them. -/
theorem final2 (c : Dev nD) :
    (dat2 V c).arrAt 3 cfg2.N = msgArr (V c main_v53) (V c main_arg8) (V c main_v54) :=
  (dat2 V c).arrAt_eq_of_cover 3 (msgArr (V c main_v53) (V c main_arg8) (V c main_v54)) (fun t _ => flushed2 V c t) cover2

end Cert.KernelIdeal.Regions

end
-- ==== Proof.RegionNode3.lean ====
/-
  The node region of pass two, from blocks to the array.

  The region runs the node kernel at 16 × 4 grid points; point `(b, j)` reads rows `2048 j … 2048 j + 2047` of
  batch `b` of the node array and of the aggregate, the counts of the same nodes, and the whole weight, bias,
  gain and shift, and writes the same rows of the output.  The output blocks tile the 16 × 8192 × 128 array,
  and each block is the updated node array of the specification restricted to its rows: so after the region the
  array IS that function of the seven arrays the region found on entry.  Stated at any entry contents `V`.
-/
import proofs.«147783_j86260123173231_1_alg».proof.Proof.Gen.KernelIdeal.Frame
import proofs.«147783_j86260123173231_1_alg».proof.Proof.Layer
import proofs.«147783_j86260123173231_1_alg».proof.Proof.NodeBlock
import Idealize.ShloMosaic.Lib.Pipeline.Value

set_option maxRecDepth 16384

noncomputable section

namespace Cert.KernelIdeal.Regions

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3_3 : (![0, 0, 0] : Fin 3 → Nat) = fun _ => 0 := funext fun a => by fin_cases a <;> rfl
theorem zeros2_3 : (![0, 0] : Fin 2 → Nat) = fun _ => 0 := funext fun a => by fin_cases a <;> rfl
theorem zeros1_3 : (![0] : Fin 1 → Nat) = fun _ => 0 := funext fun a => by fin_cases a <;> rfl

/-- The printed index maps, decided over the grid: the two row blocks move with the output's block, the counts'
    block is the output's block along the nodes, and the weight and the three vectors are always whole. -/
theorem idx_facts3 : ∀ t : Fin cfg3.N,
    win3_0.index t (0 : Fin 3) = win3_7.index t (0 : Fin 3)
    ∧ win3_0.index t (1 : Fin 3) = win3_7.index t (1 : Fin 3)
    ∧ win3_0.index t (2 : Fin 3) = 0
    ∧ win3_1.index t (0 : Fin 3) = win3_7.index t (0 : Fin 3)
    ∧ win3_1.index t (1 : Fin 3) = win3_7.index t (1 : Fin 3)
    ∧ win3_1.index t (2 : Fin 3) = 0
    ∧ win3_2.index t (0 : Fin 1) = win3_7.index t (1 : Fin 3)
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0
    ∧ win3_7.index t (2 : Fin 3) = 0
    ∧ win3_7.index t (0 : Fin 3) ≤ 15 ∧ win3_7.index t (1 : Fin 3) ≤ 3 :=
  (by decide +kernel : ∀ t : Fin grid3.N, _)

/-- Every (batch, node-block) pair is some grid point's output block. -/
theorem idx_onto3 : ∀ (q0 : Fin 16) (q1 : Fin 4), ∃ t : Fin cfg3.N, win3_7.index t = ![q0.val, q1.val, 0] :=
  (by decide +kernel : ∀ (q0 : Fin 16) (q1 : Fin 4), ∃ t : Fin grid3.N, win3_7.index t = ![q0.val, q1.val, 0])

set_option maxHeartbeats 16000000 in
/-- What grid point `t` writes back is block `t` of the updated node array of the region's seven input arrays. -/
theorem flushed3 (c : Dev nD) (t : Fin cfg3.N) :
    (dat3 V c).flushed 7 t
      = ((cfg3.win 7).blk t).view.read (Elt Ideal) (nodeArrD (V c main_arg0) (V c main_v63) (V c main_v72) (V c main_arg9) (V c main_arg10) (V c main_arg11) (V c main_arg12)) := by
  show (cfg3.win 7).cut (grid3.coords t) ((dat3 V c).after 7 t) = _
  rw [after3_7]
  unfold out3_7
  rw [View.canon_unit_zero zeros3_3]
  simp only [View.ld_unit_zero (S := S1x2048x128) zeros3_3, View.ld_unit_zero (S := S128x128) zeros2_3,
    View.ld_unit_zero (S := S2048) zeros1_3, View.ld_unit_zero (S := S128) zeros1_3]
  obtain ⟨e0, e1, e2, e3, e4, e5, e6, e7, e8, e9, e10, e11, e12, e13, e14⟩ := idx_facts3 t
  funext j
  obtain ⟨u, r, o, rfl⟩ : ∃ (u : Fin 1) (r : Fin 2048) (o : Fin 128), j = ix3 u r o := ⟨j 0, j 1, j 2, eq_ix3 j⟩
  refine (node_block3 (iblk3 V c 0 t) (iblk3 V c 1 t) (iblk3 V c 2 t) (iblk3 V c 3 t) (iblk3 V c 4 t)
    (iblk3 V c 5 t) (iblk3 V c 6 t) u r o).trans ?_
  show _ = nodeArrD (V c main_arg0) (V c main_v63) (V c main_v72) (V c main_arg9) (V c main_arg10) (V c main_arg11) (V c main_arg12)
    (((cfg3.win 7).blk t).view.emb (ix3 u r o))
  unfold nodeArrD
  generalize hE : ((cfg3.win 7).blk t).view.emb (ix3 u r o) = E
  have E0 : (E 0).val = win3_7.index t (0 : Fin 3) * 1 + 1 * u.val := by rw [← hE]; rfl
  have E1 : (E 1).val = win3_7.index t (1 : Fin 3) * 2048 + 1 * r.val := by rw [← hE]; rfl
  have E2 : (E 2).val = win3_7.index t (2 : Fin 3) * 128 + 1 * o.val := by rw [← hE]; rfl
  have hu : u.val = 0 := by omega
  have hE2 : (E 2) = o := Fin.ext (by omega)
  congr 1
  · funext k
    show V c main_arg0 (((cfg3.win 0).blk t).view.emb (ix3 (0 : Fin 1) r k)) = V c main_arg0 (ix3 (E 0) (E 1) k)
    refine congrArg (V c main_arg0) (funext fun a => Fin.ext ?_)
    match a with
    | ⟨0, _⟩ => show win3_0.index t (0 : Fin 3) * 1 + 1 * 0 = (E 0).val; omega
    | ⟨1, _⟩ => show win3_0.index t (1 : Fin 3) * 2048 + 1 * r.val = (E 1).val; omega
    | ⟨2, _⟩ => show win3_0.index t (2 : Fin 3) * 128 + 1 * k.val = k.val; omega
  · funext k
    show V c main_v63 (((cfg3.win 1).blk t).view.emb (ix3 (0 : Fin 1) r k)) = V c main_v63 (ix3 (E 0) (E 1) k)
    refine congrArg (V c main_v63) (funext fun a => Fin.ext ?_)
    match a with
    | ⟨0, _⟩ => show win3_1.index t (0 : Fin 3) * 1 + 1 * 0 = (E 0).val; omega
    | ⟨1, _⟩ => show win3_1.index t (1 : Fin 3) * 2048 + 1 * r.val = (E 1).val; omega
    | ⟨2, _⟩ => show win3_1.index t (2 : Fin 3) * 128 + 1 * k.val = k.val; omega
  · show V c main_v72 (((cfg3.win 2).blk t).view.emb (ix1 r)) = V c main_v72 (ix1 (E 1))
    refine congrArg (V c main_v72) (funext fun a => Fin.ext ?_)
    match a with
    | ⟨0, _⟩ => show win3_2.index t (0 : Fin 1) * 2048 + 1 * r.val = (E 1).val; omega
  · funext p k
    show V c main_arg9 (((cfg3.win 3).blk t).view.emb (ix2 p k)) = V c main_arg9 (ix2 p k)
    refine congrArg (V c main_arg9) (funext fun a => Fin.ext ?_)
    match a with
    | ⟨0, _⟩ => show win3_3.index t (0 : Fin 2) * 128 + 1 * p.val = p.val; omega
    | ⟨1, _⟩ => show win3_3.index t (1 : Fin 2) * 128 + 1 * k.val = k.val; omega
  · funext p
    show V c main_arg10 (((cfg3.win 4).blk t).view.emb (ix1 p)) = V c main_arg10 (ix1 p)
    refine congrArg (V c main_arg10) (funext fun a => Fin.ext ?_)
    match a with
    | ⟨0, _⟩ => show win3_4.index t (0 : Fin 1) * 128 + 1 * p.val = p.val; omega
  · funext p
    show V c main_arg11 (((cfg3.win 5).blk t).view.emb (ix1 p)) = V c main_arg11 (ix1 p)
    refine congrArg (V c main_arg11) (funext fun a => Fin.ext ?_)
    match a with
    | ⟨0, _⟩ => show win3_5.index t (0 : Fin 1) * 128 + 1 * p.val = p.val; omega
  · funext p
    show V c main_arg12 (((cfg3.win 6).blk t).view.emb (ix1 p)) = V c main_arg12 (ix1 p)
    refine congrArg (V c main_arg12) (funext fun a => Fin.ext ?_)
    match a with
    | ⟨0, _⟩ => show win3_6.index t (0 : Fin 1) * 128 + 1 * p.val = p.val; omega
  · exact hE2.symm

/-- An index of the node array is in grid point `t`'s output block iff each coordinate is in the block's range. -/
theorem mem_blk3 (t : Fin cfg3.N) (i : S16x8192x128.Idx) :
    i ∈ ((cfg3.win 7).blk t).view.set ↔ ∀ a : Fin 3, win3_7.index t a * S1x2048x128.size a ≤ (i a).val
      ∧ (i a).val < win3_7.index t a * S1x2048x128.size a + S1x2048x128.size a := by
  show i ∈ ((View.whole main_v73).slice (win3_7.rect t)).set ↔ _
  rw [View.set_slice_whole, Rect.mem_set_unit]
  exact Iff.rfl

/-- Every index of the node array is in some grid point's output block: the blocks tile the array. -/
theorem cover3 (i : S16x8192x128.Idx) :
    ∃ t : Fin cfg3.N, (cfg3.win 7).flush t = true ∧ i ∈ ((cfg3.win 7).blk t).view.set := by
  have hi0 : (i 0).val < 16 := (i 0).isLt
  have hi1 : (i 1).val < 8192 := (i 1).isLt
  have hi2 : (i 2).val < 128 := (i 2).isLt
  obtain ⟨t, ht⟩ := idx_onto3 ⟨(i 0).val, hi0⟩ ⟨(i 1).val / 2048, by omega⟩
  have q0 : win3_7.index t (0 : Fin 3) = (i 0).val := congrFun ht 0
  have q1 : win3_7.index t (1 : Fin 3) = (i 1).val / 2048 := congrFun ht 1
  have q2 : win3_7.index t (2 : Fin 3) = 0 := congrFun ht 2
  refine ⟨t, flush3_7 t, ?_⟩
  rw [mem_blk3]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 2048 ≤ (i 1).val ∧ (i 1).val < win3_7.index t (1 : Fin 3) * 2048 + 2048; omega
  | ⟨2, _⟩ => show win3_7.index t (2 : Fin 3) * 128 ≤ (i 2).val ∧ (i 2).val < win3_7.index t (2 : Fin 3) * 128 + 128; omega

/-- THE NODE ARRAY after the region: the updated node array of the region's seven input arrays as it finds them. -/
theorem final3 (c : Dev nD) :
    (dat3 V c).arrAt 7 cfg3.N = nodeArrD (V c main_arg0) (V c main_v63) (V c main_v72) (V c main_arg9) (V c main_arg10) (V c main_arg11) (V c main_arg12) :=
  (dat3 V c).arrAt_eq_of_cover 7 (nodeArrD (V c main_arg0) (V c main_v63) (V c main_v72) (V c main_arg9) (V c main_arg10) (V c main_arg11) (V c main_arg12)) (fun t _ => flushed3 V c t) cover3

end Cert.KernelIdeal.Regions

end
-- ==== Proof.RefNodeD.lean ====
/-
  The reference's update of the 8192 nodes of the second kind is the specification's node array.

  At the coordinates `(b, n, o)` the reference computes, one operation at a time: the row's own projection
  `∑ₖ h(b,n,k) · W(o,k)`; the scattered aggregate at `(b, n, o)` divided by `max(count(n), 1.0)`, the count
  spread over batches and features; the bias at `o`; the maximum of their sum with `0.0`; and the row's entry
  added to it.  That is the specification's row before normalisation.  The two reductions over the feature axis
  start from `0.0`, which denotes zero, so each is the plain sum over the 128 features `k` of the entries
  `(b, n, k)`: the first, over `128.0`, is the row's mean; the second, of the squared differences from the mean,
  over `128.0`, is its variance.  Both are kept with a trailing axis of length one and spread back over the
  features, so at `(b, n, o)` they are read at `(b, n, 0)`.  The result is the difference from the mean over
  the square root of the variance plus the offset, times the gain at `o`, plus the shift at `o`.
  The scattered aggregate and the scattered count stay opaque: they enter only as the stages that produce them.
-/
import proofs.«147783_j86260123173231_1_alg».proof.Proof.Gen.ReferenceIdeal.Read
import proofs.«147783_j86260123173231_1_alg».proof.Proof.Layer
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## Where each operation reads its operands, at literal coordinates -/

/-- Summand `k` of the projection at `(b, n, o)` reads the node array at `(b, n, k)` … -/
theorem lidx_v115 (b : Fin 16) (n : Fin 8192) (o k : Fin 128) : lidx_main_v115 (ix3 b n o) k = ix3 b n k :=
  funext fun a => Fin.ext (by match a with | ⟨0, _⟩ => rfl | ⟨1, _⟩ => rfl | ⟨2, _⟩ => rfl)

/-- … and the weight matrix at `(o, k)`. -/
theorem ridx_v115 (b : Fin 16) (n : Fin 8192) (o k : Fin 128) : ridx_main_v115 (ix3 b n o) k = ix2 o k :=
  funext fun a => Fin.ext (by match a with | ⟨0, _⟩ => rfl | ⟨1, _⟩ => rfl)

/-- The clipped count spread over batches and features is read at the node `n` alone. -/
theorem idx_v112_v113 (b : Fin 16) (n : Fin 8192) (o : Fin 128) :
    idx_main_v112 (idx_main_v113 (ix3 b n o)) = ix1 n :=
  funext fun a => Fin.ext (by match a with | ⟨0, _⟩ => rfl)

/-- The bias spread over batches and nodes is read at the feature `o` alone … -/
theorem idx_v117_v118 (b : Fin 16) (n : Fin 8192) (o : Fin 128) :
    idx_main_v117 (idx_main_v118 (ix3 b n o)) = ix1 o :=
  funext fun a => Fin.ext (by match a with | ⟨0, _⟩ => rfl)

/-- … and so are the gain … -/
theorem idx_v140_v141 (b : Fin 16) (n : Fin 8192) (o : Fin 128) :
    idx_main_v140 (idx_main_v141 (ix3 b n o)) = ix1 o :=
  funext fun a => Fin.ext (by match a with | ⟨0, _⟩ => rfl)

/-- … and the shift. -/
theorem idx_v143_v144 (b : Fin 16) (n : Fin 8192) (o : Fin 128) :
    idx_main_v143 (idx_main_v144 (ix3 b n o)) = ix1 o :=
  funext fun a => Fin.ext (by match a with | ⟨0, _⟩ => rfl)

/-- A row sum kept with a trailing axis of length one is read at the row `(b, n)` … -/
theorem idx_v123 (b : Fin 16) (n : Fin 8192) (z : Fin 1) : idx_main_v123 (ix3 b n z) = ix2 b n :=
  funext fun a => Fin.ext (by match a with | ⟨0, _⟩ => rfl | ⟨1, _⟩ => rfl)

/-- … and its summand `k` is the entry `(b, n, k)`. -/
theorem idx_v122 (b : Fin 16) (n : Fin 8192) (k : Fin 128) : idx_main_v122 (ix2 b n) k = ix3 b n k :=
  funext fun a => Fin.ext (by match a with | ⟨0, _⟩ => rfl | ⟨1, _⟩ => rfl | ⟨2, _⟩ => rfl)

/-- The same two facts for the sum of squares. -/
theorem idx_v130 (b : Fin 16) (n : Fin 8192) (z : Fin 1) : idx_main_v130 (ix3 b n z) = ix2 b n :=
  funext fun a => Fin.ext (by match a with | ⟨0, _⟩ => rfl | ⟨1, _⟩ => rfl)

theorem idx_v129 (b : Fin 16) (n : Fin 8192) (k : Fin 128) : idx_main_v129 (ix2 b n) k = ix3 b n k :=
  funext fun a => Fin.ext (by match a with | ⟨0, _⟩ => rfl | ⟨1, _⟩ => rfl | ⟨2, _⟩ => rfl)

/-- A row statistic spread back over the features is read at `(b, n, 0)`: the mean inside the variance … -/
theorem idx_v126 (b : Fin 16) (n : Fin 8192) (o : Fin 128) : idx_main_v126 (ix3 b n o) = ix3 b n (0 : Fin 1) :=
  funext fun a => Fin.ext (by match a with | ⟨0, _⟩ => rfl | ⟨1, _⟩ => rfl | ⟨2, _⟩ => rfl)

/-- … the mean inside the result … -/
theorem idx_v133 (b : Fin 16) (n : Fin 8192) (o : Fin 128) : idx_main_v133 (ix3 b n o) = ix3 b n (0 : Fin 1) :=
  funext fun a => Fin.ext (by match a with | ⟨0, _⟩ => rfl | ⟨1, _⟩ => rfl | ⟨2, _⟩ => rfl)

/-- … and the square root. -/
theorem idx_v138 (b : Fin 16) (n : Fin 8192) (o : Fin 128) : idx_main_v138 (ix3 b n o) = ix3 b n (0 : Fin 1) :=
  funext fun a => Fin.ext (by match a with | ⟨0, _⟩ => rfl | ⟨1, _⟩ => rfl | ⟨2, _⟩ => rfl)

/-! ## The row before normalisation -/

/-- The row `(b, n)` after the residual addition is the specification's row before normalisation: the row, plus
    the maximum with `0.0` of its projection plus its aggregate over `max(count, 1.0)` plus the bias. -/
theorem preD_row (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x8 x9 : (⟨S128x128, .f32⟩ : BufTy).Contents (Elt Ideal))
    (x10 : (⟨S128, .f32⟩ : BufTy).Contents (Elt Ideal)) (x13 x14 : (⟨S2x65536, .i32⟩ : BufTy).Contents (Elt Ideal)) (b : Fin 16) (n : Fin 8192) :
    (fun k : Fin 128 => val_main_v121 (F := Ideal) x0 x1 x2 x3 x4 x5 x6 x7 x8 x9 x10 x13 x14 (ix3 b n k))
      = Cert.Layer.preNorm (fun k => x0 (ix3 b n k))
          (fun k => val_main_v100 (F := Ideal) x0 x1 x2 x3 x4 x5 x6 x7 x8 x13 x14 (ix3 b n k))
          (val_main_v109 (F := Ideal) x14 (ix1 n)) (fun o k => x9 (ix2 o k)) (fun o => x10 (ix1 o)) := by
  funext o
  simp only [val_main_v121_apply, val_main_v120_apply, val_main_v119_apply, val_main_v116_apply, val_main_v115_apply,
    val_main_v114_apply, val_main_v113_apply, val_main_v112_apply, val_main_v111_apply, val_main_v110_apply,
    val_main_cst_26_apply, val_main_v118_apply, val_main_v117_apply, val_main_call1_v0_apply, val_main_call1_cst_apply,
    lidx_v115, ridx_v115, idx_v112_v113, idx_v117_v118,
    Ideal.addf_def, Ideal.maximumf_def, Ideal.hostDivf_def, Ideal.ofBits_def]
  rfl

/-! ## Mean, variance, and the normalised row -/

/-- The first reduction over `128.0` is the mean of the row: its initial `0.0` denotes zero and drops. -/
theorem meanD_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x8 x9 : (⟨S128x128, .f32⟩ : BufTy).Contents (Elt Ideal))
    (x10 : (⟨S128, .f32⟩ : BufTy).Contents (Elt Ideal)) (x13 x14 : (⟨S2x65536, .i32⟩ : BufTy).Contents (Elt Ideal)) (b : Fin 16) (n : Fin 8192) (z : Fin 1) :
    val_main_v125 (F := Ideal) x0 x1 x2 x3 x4 x5 x6 x7 x8 x9 x10 x13 x14 (ix3 b n z)
      = Cert.Layer.rowMean (fun k : Fin 128 => val_main_v121 (F := Ideal) x0 x1 x2 x3 x4 x5 x6 x7 x8 x9 x10 x13 x14 (ix3 b n k)) := by
  simp only [val_main_v125_apply, val_main_v123_apply, val_main_v122_apply, val_main_v124_apply, val_main_cst_28_apply,
    val_main_cst_27_apply, idx_v123, idx_v122, Ideal.hostDivf_def, Ideal.ofBits_def, Ideal.ofBits_zero_f32, zero_add]
  rfl

/-- The second reduction, of the squared differences from the mean, over `128.0` is the variance of the row. -/
theorem varD_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x8 x9 : (⟨S128x128, .f32⟩ : BufTy).Contents (Elt Ideal))
    (x10 : (⟨S128, .f32⟩ : BufTy).Contents (Elt Ideal)) (x13 x14 : (⟨S2x65536, .i32⟩ : BufTy).Contents (Elt Ideal)) (b : Fin 16) (n : Fin 8192) (z : Fin 1) :
    val_main_v132 (F := Ideal) x0 x1 x2 x3 x4 x5 x6 x7 x8 x9 x10 x13 x14 (ix3 b n z)
      = Cert.Layer.rowVar (fun k : Fin 128 => val_main_v121 (F := Ideal) x0 x1 x2 x3 x4 x5 x6 x7 x8 x9 x10 x13 x14 (ix3 b n k)) := by
  simp only [val_main_v132_apply, val_main_v130_apply, val_main_v129_apply, val_main_v131_apply, val_main_cst_30_apply,
    val_main_cst_29_apply, val_main_v128_apply, val_main_v127_apply, val_main_v126_apply, idx_v130, idx_v129,
    idx_v126, meanD_eq, Ideal.hostDivf_def, Ideal.subf_def, Ideal.mulf_def, Ideal.ofBits_def, Ideal.ofBits_zero_f32,
    zero_add]
  rfl

/-- The result at `(b, n, o)` is the normalised row at `o`: the difference from the mean over the square root
    of the variance plus the offset, times the gain, plus the shift. -/
theorem outD_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x8 x9 : (⟨S128x128, .f32⟩ : BufTy).Contents (Elt Ideal))
    (x10 x11 x12 : (⟨S128, .f32⟩ : BufTy).Contents (Elt Ideal)) (x13 x14 : (⟨S2x65536, .i32⟩ : BufTy).Contents (Elt Ideal)) (b : Fin 16) (n : Fin 8192) (o : Fin 128) :
    val_main_v145 (F := Ideal) x0 x1 x2 x3 x4 x5 x6 x7 x8 x9 x10 x11 x12 x13 x14 (ix3 b n o)
      = Cert.Layer.normRow (fun k : Fin 128 => val_main_v121 (F := Ideal) x0 x1 x2 x3 x4 x5 x6 x7 x8 x9 x10 x13 x14 (ix3 b n k))
          (fun o => x11 (ix1 o)) (fun o => x12 (ix1 o)) o := by
  simp only [val_main_v145_apply, val_main_v142_apply, val_main_v139_apply, val_main_v134_apply, val_main_v133_apply,
    val_main_v138_apply, val_main_v137_apply, val_main_v136_apply, val_main_v135_apply, val_main_cst_31_apply,
    val_main_v141_apply, val_main_v140_apply, val_main_v144_apply, val_main_v143_apply, idx_v133, idx_v138,
    idx_v140_v141, idx_v143_v144, meanD_eq, varD_eq, Ideal.addf_def, Ideal.subf_def, Ideal.mulf_def,
    Ideal.hostDivf_def, Ideal.hostUnary_sqrt_def, Ideal.ofBits_def]
  rfl

/-- The reference's updated node array is the specification's, over the same node rows, scattered aggregate,
    scattered count, weights, bias, gain and shift. -/
theorem nodeD_eq (x0 : (⟨S16x8192x128, .f32⟩ : BufTy).Contents (Elt Ideal)) (x1 : (⟨S16x16384x128, .f32⟩ : BufTy).Contents (Elt Ideal))
    (x2 : (⟨S16384, .f32⟩ : BufTy).Contents (Elt Ideal)) (x3 x4 : (⟨S128x128, .f32⟩ : BufTy).Contents (Elt Ideal))
    (x5 x6 x7 : (⟨S128, .f32⟩ : BufTy).Contents (Elt Ideal)) (x8 x9 : (⟨S128x128, .f32⟩ : BufTy).Contents (Elt Ideal))
    (x10 x11 x12 : (⟨S128, .f32⟩ : BufTy).Contents (Elt Ideal)) (x13 x14 : (⟨S2x65536, .i32⟩ : BufTy).Contents (Elt Ideal)) :
    val_main_v145 (F := Ideal) x0 x1 x2 x3 x4 x5 x6 x7 x8 x9 x10 x11 x12 x13 x14
      = Cert.Layer.nodeArrD x0 (val_main_v100 (F := Ideal) x0 x1 x2 x3 x4 x5 x6 x7 x8 x13 x14) (val_main_v109 (F := Ideal) x14)
          x9 x10 x11 x12 := by
  funext i
  obtain ⟨b, n, o, rfl⟩ : ∃ (b : Fin 16) (n : Fin 8192) (o : Fin 128), i = ix3 b n o := ⟨i 0, i 1, i 2, eq_ix3 i⟩
  rw [outD_eq, preD_row]
  rfl

end Cert.ReferenceIdeal.RefValue

end
-- ==== Proof.ValuePassTwo.lean ====
/-
  The second pass read through the program: from the updated rows of the nodes of the first kind to the
  updated rows of the nodes of the second kind.

  Walking the fold back from the last region's exit: its output is the updated node array of its seven input
  arrays; the aggregate and the counts were written by the host stretch before it (a scatter-add of the third
  region's message array, and of ones, at the second pass's destination indices); that message array is the
  message array of the rows gathered from the second region's output, the second message weight and an
  all-ones scale.  The second region's output itself is written by nothing after it, so it is also what the
  program returns for the nodes of the first kind.
-/
import proofs.«147783_j86260123173231_1_alg».proof.Proof.KernelRun
import proofs.«147783_j86260123173231_1_alg».proof.Proof.ValuePassOne
import proofs.«147783_j86260123173231_1_alg».proof.Proof.RegionMsg2
import proofs.«147783_j86260123173231_1_alg».proof.Proof.RegionNode3
import proofs.«147783_j86260123173231_1_alg».proof.Proof.RefMsg
import proofs.«147783_j86260123173231_1_alg».proof.Proof.RefNodeE
import proofs.«147783_j86260123173231_1_alg».proof.Proof.RefNodeD
import Idealize.ShloMosaic.Lib.StableHlo.Run

set_option maxRecDepth 16384

noncomputable section

namespace Cert.KernelIdeal.Values

open Cert.KernelIdeal Cert.KernelIdeal.Gen Cert.KernelIdeal.Regions Cert.Layer
open Idealize.ShloMosaic Idealize.ShloMosaic.TcCoe Idealize.SL.Sem
open Cert.ReferenceIdeal.Read (val_main_v3 val_main_v10 val_main_v24 val_main_v27 val_main_v35 val_main_v44 val_main_v80
  val_main_v84 val_main_v91 val_main_v92 val_main_v100 val_main_v109 val_main_v145)
open Cert.ReferenceIdeal.RefValue (msg2_eq nodeD_eq)

variable (m : (ℓ : Loc nD τ sig) → Buf (Elt Ideal) ℓ) (ρ : Dev nD → PrngReg) (c : Dev nD)

/-! ## Region 2's three input arrays -/

/-- The second pass's edge list is untouched up to the second region's exit. -/
theorem edges4 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

set_option maxHeartbeats 4000000 in
/-- The rows gathered from the updated nodes of the first kind. -/
theorem rows2 : V5 m ρ c main_v53 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) := by
  show StableHlo.after hostOps2 (W4 m ρ c) (Proc.devRef .tc main_v53) = _
  after_results_simp
  rw [outE, edges4]
  rfl

set_option maxHeartbeats 4000000 in
/-- The second pass scales every message by one. -/
theorem ones2 : V5 m ρ c main_v54 = fun _ => lit1 := by
  show StableHlo.after hostOps2 (W4 m ρ c) (Proc.devRef .tc main_v54) = _
  after_results_simp
  rfl

/-- The second message weight is untouched up to the third region. -/
theorem weight5 : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- THE SECOND MESSAGE ARRAY, at the third region's exit, is the reference's projection: the all-ones scale drops. -/
theorem msg2 : W6 m ρ c (Proc.devRef .tc main_v55) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) :=
  (W6_arr m ρ c 3).trans ((final2 (V5 m ρ) c).trans (by
    rw [rows2, ones2, show V5 m ρ c main_arg8 = _ from weight5 m ρ c]
    exact (msg2_eq _ _ _ _ _ _ _ _ _ _ _).symm))

/-! ## Region 3's seven input arrays -/

set_option maxHeartbeats 4000000 in
/-- The destination indices of the second pass survive the third region. -/
theorem dst2 : W6 m ρ c (Proc.devRef .tc main_v46) = val_main_v84 (F := Ideal) (m ((c : Thread nD τ).loc main_arg14)) :=
  (W6_of_ne m ρ c main_v46 (by decide)).trans (by
    show StableHlo.after hostOps2 (W4 m ρ c) (Proc.devRef .tc main_v46) = _
    after_results
    rw [edges4]
    rfl)

set_option maxHeartbeats 4000000 in
/-- The aggregate: the second message array scatter-added at the destination indices. -/
theorem agg2 : V7 m ρ c main_v63 = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) := by
  show StableHlo.after hostOps3 (W6 m ρ c) (Proc.devRef .tc main_v63) = _
  after_results_simp
  rw [msg2, dst2]
  rfl

set_option maxHeartbeats 4000000 in
/-- The counts: ones scatter-added at the destination indices. -/
theorem cnt2 : V7 m ρ c main_v72 = val_main_v109 (F := Ideal) (m ((c : Thread nD τ).loc main_arg14)) := by
  show StableHlo.after hostOps3 (W6 m ρ c) (Proc.devRef .tc main_v72) = _
  after_results_simp
  rw [dst2]
  rfl

/-- The rows of the nodes of the second kind are untouched up to the last region. -/
theorem nodesD7 : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Their self weight is untouched up to the last region. -/
theorem weightD7 : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Their bias is untouched up to the last region. -/
theorem biasD7 : W7 m ρ c (Proc.devRef .tc main_arg10) = m ((c : Thread nD τ).loc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Their gain is untouched up to the last region. -/
theorem gainD7 : W7 m ρ c (Proc.devRef .tc main_arg11) = m ((c : Thread nD τ).loc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Their shift is untouched up to the last region. -/
theorem shiftD7 : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- THE UPDATED ROWS OF THE NODES OF THE SECOND KIND, at the end of the run, are the reference's. -/
theorem outD : W8 m ρ c (Proc.devRef .tc main_v73) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 7).trans ((final3 (V7 m ρ) c).trans (by
    rw [agg2, cnt2, show V7 m ρ c main_arg0 = _ from nodesD7 m ρ c, show V7 m ρ c main_arg9 = _ from weightD7 m ρ c,
      show V7 m ρ c main_arg10 = _ from biasD7 m ρ c, show V7 m ρ c main_arg11 = _ from gainD7 m ρ c,
      show V7 m ρ c main_arg12 = _ from shiftD7 m ρ c]
    exact (nodeD_eq _ _ _ _ _ _ _ _ _ _ _ _ _ _ _).symm))

/-- THE UPDATED ROWS OF THE NODES OF THE FIRST KIND are written by nothing after the second region: the end of the run still has them. -/
theorem outE8 : W8 m ρ c (Proc.devRef .tc main_v42) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) :=
  calc W8 m ρ c (Proc.devRef .tc main_v42)
    _ = W7 m ρ c (Proc.devRef .tc main_v42) := W8_of_ne m ρ c main_v42 (by decide)
    _ = W6 m ρ c (Proc.devRef .tc main_v42) := StableHlo.after_of_forall_not_mem (b := Proc.devRef .tc main_v42) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v42) := W6_of_ne m ρ c main_v42 (by decide)
    _ = W4 m ρ c (Proc.devRef .tc main_v42) := StableHlo.after_of_forall_not_mem (b := Proc.devRef .tc main_v42) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) := outE m ρ c

end Cert.KernelIdeal.Values

end
-- ==== Proof.lean ====
/-
  A two-pass message-passing layer on a bipartite graph: the fused program against its plain reference.

  Each pass gathers source rows along an edge list, projects every gathered row by a weight (scaled, in the
  first pass, by a logistic weight of the edge's destination), scatter-adds the messages at the destinations,
  and then updates every destination row: its own projection plus its aggregate divided by `max(count, 1)` plus
  a bias, clipped at zero, added back to the row, and the result normalised along its 128 features.  The fused
  program computes the projections and the row updates in four tiled kernels and leaves the gathers and the
  scatter-adds to the host; the reference does everything on the host.

  At the exact instance both programs compute the same function, and no algebraic law beyond `x · 1 = x` is
  needed: a change of float format is the identity; a tile's matrix product accumulated from zero and the
  host's product are the same sum over the 128 features; every reduction runs along one row, so it does not
  see the tiling; the second pass's all-ones scale drops.  The proof names the array functions once
  (`Cert.Layer`), shows that each kernel's blocks are those functions restricted to the blocks and that the
  blocks tile the arrays, shows that each stage of the reference is the same function, and carries the gathers
  and the scatter-adds along unopened, since both programs apply them to values already shown equal.  The
  precondition is never used: nothing here divides out or distributes over a possibly infinite value.
-/
import proofs.«147783_j86260123173231_1_alg».proof.Defs
import proofs.«147783_j86260123173231_1_alg».proof.Proof.Gen.Kernel
import proofs.«147783_j86260123173231_1_alg».proof.Proof.Gen.Kernel.Skeleton
import proofs.«147783_j86260123173231_1_alg».proof.Proof.Gen.Kernel.Launch
import proofs.«147783_j86260123173231_1_alg».proof.Proof.Gen.Kernel.Points
import proofs.«147783_j86260123173231_1_alg».proof.Proof.Gen.Kernel.Frame
import proofs.«147783_j86260123173231_1_alg».proof.Proof.Gen.KernelIdeal
import proofs.«147783_j86260123173231_1_alg».proof.Proof.Gen.KernelIdeal.Skeleton
import proofs.«147783_j86260123173231_1_alg».proof.Proof.Gen.KernelIdeal.Launch
import proofs.«147783_j86260123173231_1_alg».proof.Proof.Gen.KernelIdeal.Points
import proofs.«147783_j86260123173231_1_alg».proof.Proof.Gen.KernelIdeal.Frame
import proofs.«147783_j86260123173231_1_alg».proof.Proof.Gen.ReferenceIdeal
import proofs.«147783_j86260123173231_1_alg».proof.Proof.Gen.Pre_finite_inputs
import proofs.«147783_j86260123173231_1_alg».proof.Proof.Gen.ReferenceIdeal.Run
import proofs.«147783_j86260123173231_1_alg».proof.Proof.Gen.ReferenceIdeal.Read
import proofs.«147783_j86260123173231_1_alg».proof.Proof.KernelRun
import proofs.«147783_j86260123173231_1_alg».proof.Proof.ValuePassOne
import proofs.«147783_j86260123173231_1_alg».proof.Proof.ValuePassTwo
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the exact-instance program. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The exact-instance program is the word-level program's own text: nothing was rewritten. -/
theorem preserves : Cert.preserves_Kernel_KernelIdeal := trivial

/-- From memories agreeing on the fifteen arguments both programs end with the same two arrays: the reference's
    last stage for the nodes of the second kind and its stage for the nodes of the first kind, read at the
    fused program's arguments. -/
theorem algebraic : Cert.algebraic_KernelIdeal_ReferenceIdeal := by
  intro m ρ m' ρ' _ hagree
  refine ⟨fun c => Cert.ReferenceIdeal.Read.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Values.outD m ρ c),
        (h c).2.1.trans (Cert.KernelIdeal.Values.outE8 m ρ c), (h c).2.2⟩)
      (Cert.KernelIdeal.Results.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14⟩ := hagree c
      rw [Cert.ReferenceIdeal.Read.val_main_v145_eq, e0, e1, e2, e3, e4, e5, e6, e7, e8, e9, e10, e11, e12, e13, e14]
    · obtain ⟨e0, e1, e2, e3, e4, e5, e6, e7, e8, e9, e10, e11, e12, e13, e14⟩ := hagree c
      rw [Cert.ReferenceIdeal.Read.val_main_v80_eq, e0, e1, e2, e3, e4, e5, e6, e7, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
